-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_c)) (v2 : (c : Dev Cert.KernelIdeal.nD) → Buf (Elt Ideal) ((c.tc : Thread Cert.KernelIdeal.nD Cert.KernelIdeal.τ).loc Cert.KernelIdeal.main_c_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_c) = v1 c
          ∧ r.2.mem ((c.tc : Thread Cert.KernelIdeal.nD Cert.KernelIdeal.τ).loc Cert.KernelIdeal.main_c_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_c) = v1 c
          ∧ r.2.mem ((c.tc : Thread Cert.ReferenceIdeal.nD Cert.ReferenceIdeal.τ).loc Cert.ReferenceIdeal.main_c_0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S64x128 : Shape := ⟨2, ![64, 128]⟩
abbrev S16x64 : Shape := ⟨2, ![16, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S64x128 : S_.BroadcastsInDim S64x128 (![] : Fin 0 → Fin S64x128.rank)
  reducesTo_S64x128_S_d0_1 : S64x128.ReducesTo [0, 1] S_
  bcast_S_S16x64 : S_.BroadcastsInDim S16x64 (![] : Fin 0 → Fin S16x64.rank)
  reducesTo_S16x64_S_d0_1 : S16x64.ReducesTo [0, 1] S_

variable [Facts]

def fn_part1 {F : FTy → Type} [FloatOps F] (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S64x128 .f32) (main_arg3 : FVec F S16x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S16x64 .f32 := Host.absf main_arg3
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S64x128 : Shape := ⟨2, ![64, 128]⟩
abbrev S16x64 : Shape := ⟨2, ![16, 64]⟩
abbrev S1 : Shape := ⟨1, ![1]⟩
abbrev S10000x64 : Shape := ⟨2, ![10000, 64]⟩
abbrev S10000x16 : Shape := ⟨2, ![10000, 16]⟩
abbrev S400x10000 : Shape := ⟨2, ![400, 10000]⟩
abbrev S400x16 : Shape := ⟨2, ![400, 16]⟩
abbrev S400x64 : Shape := ⟨2, ![400, 64]⟩

abbrev nBuf : Space → Nat
  | .hbm => 10
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S16x64, .f32⟩
  | .hbm, ⟨4, _⟩ => ⟨S1, .i32⟩
  | .hbm, ⟨5, _⟩ => ⟨S1, .i32⟩
  | .hbm, ⟨6, _⟩ => ⟨S10000x64, .f32⟩
  | .hbm, ⟨7, _⟩ => ⟨S10000x16, .f32⟩
  | .hbm, ⟨8, _⟩ => ⟨S10000x16, .f32⟩
  | .hbm, ⟨9, _⟩ => ⟨S10000x10000, .f32⟩
  | .local _ .vmem, ⟨0, _⟩ => ⟨S10000x128, .f32⟩
  | .local _ .vmem, ⟨1, _⟩ => ⟨S64x128, .f32⟩
  | .local _ .vmem, ⟨2, _⟩ => ⟨S10000x64, .f32⟩
  | .local _ .vmem, ⟨3, _⟩ => ⟨S400x10000, .f32⟩
  | .local _ .vmem, ⟨4, _⟩ => ⟨S400x10000, .f32⟩
  | .local _ .vmem, ⟨5, _⟩ => ⟨S10000x64, .f32⟩
  | .local _ .vmem, ⟨6, _⟩ => ⟨S16x64, .f32⟩
  | .local _ .vmem, ⟨7, _⟩ => ⟨S400x16, .f32⟩
  | .local _ .vmem, ⟨8, _⟩ => ⟨S400x16, .f32⟩
  | .local _ .vmem, ⟨9, _⟩ => ⟨S400x10000, .f32⟩
  | .local _ .vmem, ⟨10, _⟩ => ⟨S400x10000, .f32⟩
  | .local _ .vmem, ⟨11, _⟩ => ⟨S10000x16, .f32⟩
  | .local _ .vmem, ⟨12, _⟩ => ⟨S400x16, .f32⟩
  | .local _ .vmem, ⟨13, _⟩ => ⟨S400x16, .f32⟩
  | .local _ .vmem, ⟨14, _⟩ => ⟨S400x16, .f32⟩
  | .local _ .vmem, ⟨15, _⟩ => ⟨S400x16, .f32⟩
  | .local _ .vmem, ⟨16, _⟩ => ⟨S10000x16, .f32⟩
  | .local _ .vmem, ⟨17, _⟩ => ⟨S400x10000, .f32⟩
  | .local _ .vmem, ⟨18, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg2_1 : Ref sig .tc := ⟨.vmem, 18, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem2_0 : DmaSem sig := 17
abbrev cc3_sem2_1 : DmaSem sig := 18

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x10000 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  inb_S64x128_S64x128_0_0 : ∀ a, (![0, 0] : Fin 2 → Nat) a + S64x128.size a ≤ S64x128.size a
  h_S64x128 : 0 < S64x128.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S16x64_S16x64_0_0 : ∀ a, (![0, 0] : Fin 2 → Nat) a + S16x64.size a ≤ S16x64.size a
  h_S16x64 : 0 < S16x64.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  shapeCasts_S400x16_S400x16 : S400x16.ShapeCasts S400x16
  dot_S10000x128_S64x128_S10000x64_1_1_0_0_n_n_wf : DotDims.WF S10000x128 S64x128 S10000x64 [1] [1] [0] [0] [] []
  dot_S400x10000_S10000x64_S400x64_1_0_0_1_n_n_wf : DotDims.WF S400x10000 S10000x64 S400x64 [1] [0] [0] [1] [] []
  dot_S400x64_S16x64_S400x16_1_1_0_0_n_n_wf : DotDims.WF S400x64 S16x64 S400x16 [1] [1] [0] [0] [] []
  dot_S400x10000_S10000x16_S400x16_1_0_0_1_n_n_wf : DotDims.WF S400x10000 S10000x16 S400x16 [1] [0] [0] [1] [] []
  dot_S400x16_S10000x16_S400x10000_1_1_0_0_n_n_wf : DotDims.WF S400x16 S10000x16 S400x10000 [1] [1] [0] [0] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x64.size a ≤ S16x64.size a
  hwx1_2 : ∀ i : grid1.Coords, EltTy.bits .f32 = 32 ∨ (Rect.block (s := S16x64) S16x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S10000x16.size a
  hwx1_3 : ∀ i : grid1.Coords, EltTy.bits .f32 = 32 ∨ (Rect.block (s := S10000x16) S400x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x16.size a ≤ S10000x16.size a
  hwx3_0 : ∀ i : grid3.Coords, EltTy.bits .f32 = 32 ∨ (Rect.block (s := S10000x16) S400x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x10000.size a ≤ S10000x10000.size a
  hwx3_2 : ∀ i : grid3.Coords, EltTy.bits .f32 = 32 ∨ (Rect.block (s := S10000x10000) S400x10000.size (cc3_transform_2 i) (hinb3_2 i)).WholeWords (EltTy.packing .f32)

variable [Facts₀]

def dot_S10000x128_S64x128_S10000x64_1_1_0_0_n_n : DotDims S10000x128 S64x128 S10000x64 where
  lhsContracting := [1]
  rhsContracting := [1]
  lhsNonContracting := [0]
  rhsNonContracting := [0]
  lhsBatch := []
  rhsBatch := []
  wf := dot_S10000x128_S64x128_S10000x64_1_1_0_0_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S16x64_S400x16_1_1_0_0_n_n : DotDims S400x64 S16x64 S400x16 where
  lhsContracting := [1]
  rhsContracting := [1]
  lhsNonContracting := [0]
  rhsNonContracting := [0]
  lhsBatch := []
  rhsBatch := []
  wf := dot_S400x64_S16x64_S400x16_1_1_0_0_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S10000x16_S400x10000_1_1_0_0_n_n : DotDims S400x16 S10000x16 S400x10000 where
  lhsContracting := [1]
  rhsContracting := [1]
  lhsNonContracting := [0]
  rhsNonContracting := [0]
  lhsBatch := []
  rhsBatch := []
  wf := dot_S400x16_S10000x16_S400x10000_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S400x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x10000.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S64x128 : Shape := ⟨2, ![64, 128]⟩
abbrev S16x64 : Shape := ⟨2, ![16, 64]⟩
abbrev S1 : Shape := ⟨1, ![1]⟩
abbrev S128x64 : Shape := ⟨2, ![128, 64]⟩
abbrev S10000x64 : Shape := ⟨2, ![10000, 64]⟩
abbrev S_ : Shape := ⟨0, ![]⟩
abbrev S64x16 : Shape := ⟨2, ![64, 16]⟩
abbrev S10000x16 : Shape := ⟨2, ![10000, 16]⟩
abbrev S16x10000 : Shape := ⟨2, ![16, 10000]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S64x128, .f32⟩
  | .hbm, ⟨3, _⟩ => ⟨S16x64, .f32⟩
  | .hbm, ⟨4, _⟩ => ⟨S1, .i32⟩
  | .hbm, ⟨5, _⟩ => ⟨S1, .i32⟩
  | .hbm, ⟨6, _⟩ => ⟨S128x64, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000x64, .f32⟩
  | .hbm, ⟨11, _⟩ => ⟨S10000x64, .f32⟩
  | .hbm, ⟨12, _⟩ => ⟨S64x16, .f32⟩
  | .hbm, ⟨13, _⟩ => ⟨S10000x16, .f32⟩
  | .hbm, ⟨14, _⟩ => ⟨S10000x16, .f32⟩
  | .hbm, ⟨15, _⟩ => ⟨S16x10000, .f32⟩
  | .hbm, ⟨16, _⟩ => ⟨S10000x10000, .f32⟩
  | .hbm, ⟨17, _⟩ => ⟨S10000x10000, .f32⟩
  | .hbm, ⟨18, _⟩ => ⟨S10000x10000, .f32⟩
  | .hbm, ⟨19, _⟩ => ⟨S_, .f32⟩
  | .hbm, ⟨20, _⟩ => ⟨S10000x10000, .f32⟩
  | .hbm, ⟨21, _⟩ => ⟨S10000x10000, .f32⟩
  | .hbm, ⟨22, _⟩ => ⟨S_, .f32⟩
  | .hbm, ⟨23, _⟩ => ⟨S10000x10000, .f32⟩
  | .hbm, ⟨24, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  transposes_S64x128_S128x64_1_0 : S64x128.Transposes [1, 0] S128x64
  bcast_S_S10000x64 : S_.BroadcastsInDim S10000x64 (![] : Fin 0 → Fin S10000x64.rank)
  transposes_S16x64_S64x16_1_0 : S16x64.Transposes [1, 0] S64x16
  transposes_S10000x16_S16x10000_1_0 : S10000x16.Transposes [1, 0] S16x10000
  bcast_S_S10000x10000 : S_.BroadcastsInDim S10000x10000 (![] : Fin 0 → Fin S10000x10000.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.Kernel.Call0.lean ====
/-
  Pallas call 0 of the forward pass — the first layer's features X W1ᵀ, computed whole at the one point of a gridless call — at the contents `V` the
  TensorCore's arrays hold when the call is entered. A window's block at a grid point is the part of its array the
  point's index map selects (`iblk0`); the body reads its input windows' staging buffers whole, applies the payload
  `k0_pay1` and stores the result over the whole of the output window's buffer, so after the body that buffer holds
  the payload of the input blocks (`out0_2`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.Kernel.Launch
import proofs.«175761_g11158325035213_week1_w3_1130_5_alg».proof.Proof.Gen.Kernel.Skeleton
import proofs.«175761_g11158325035213_week1_w3_1130_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, whether the point fetches it or not (an
    unfetched window's block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block of the array at every point, whether the point fetches it or not (an
    unfetched window's block index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of each window's staging buffer: the rectangle every load and the one store of the body go through. -/
abbrev r0_0 : Rect S10000x128 := Rect.unit (s := S10000x128) ![0, 0] S10000x128.size inb_S10000x128_S10000x128_0_0
abbrev r0_1 : Rect S64x128 := Rect.unit (s := S64x128) ![0, 0] S64x128.size inb_S64x128_S64x128_0_0
abbrev r0_2 : Rect S10000x64 := Rect.unit (s := S10000x64) ![0, 0] S10000x64.size inb_S10000x64_S10000x64_0_0

/-- What the output window's staging buffer holds after the body: the payload of the input buffers, stored whole. -/
def out0_2 (x0 : Vec F S10000x128 .f32) (x1 : Vec F S64x128 .f32) : Vec F S10000x64 .f32 :=
  View.canon [⟨r0_2, k0_pay1 (View.ld x0 r0_0) (View.ld x1 r0_1)⟩]

/-- The one store covers the buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging buffers, the inputs' at contents `x` and the output's at anything, runs to its end with the
    inputs' buffers unchanged and the output's at `out0_2` of the inputs'. -/
theorem sound_kernel0 (c : Dev nD) (E : Set ℕ) (arg0 : Memref sig .tc .vmem S10000x128 .f32) (harg0 : arg0.IsWhole) (arg1 : Memref sig .tc .vmem S64x128 .f32) (harg1 : arg1.IsWhole) (arg2 : Memref sig .tc .vmem S10000x64 .f32) (harg2 : arg2.IsWhole)
    (x0 : Vec F S10000x128 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body at point `t` each input
    window's buffer at its block and the output's at the payload of the input blocks; the invariant is the rest of
    the core's scoped memory and its generator register, untouched; nothing is owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Pass

end
-- ==== Proof.Kernel.Call1.lean ====
/-
  Pallas call 1 of the forward pass — a slab of 400 rows of relu(A U) W2ᵀ from the slab's 400 rows of A, the whole of U and the whole of W2 — at the contents `V` the
  TensorCore's arrays hold when the call is entered. A window's block at a grid point is the part of its array the
  point's index map selects (`iblk1`); the body reads its input windows' staging buffers whole, applies the payload
  `k1_pay1` and stores the result over the whole of the output window's buffer, so after the body that buffer holds
  the payload of the input blocks (`out1_3`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.Kernel.Launch
import proofs.«175761_g11158325035213_week1_w3_1130_5_alg».proof.Proof.Gen.Kernel.Skeleton
import proofs.«175761_g11158325035213_week1_w3_1130_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every point, whether the point fetches it or not (an
    unfetched window's block index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block of the array at every point, whether the point fetches it or not (an
    unfetched window's block index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block of the array at every point, whether the point fetches it or not (an
    unfetched window's block index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each window's staging buffer: the rectangle every load and the one store of the body go through. -/
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S16x64 := Rect.unit (s := S16x64) ![0, 0] S16x64.size inb_S16x64_S16x64_0_0
abbrev r1_3 : Rect S400x16 := Rect.unit (s := S400x16) ![0, 0] S400x16.size inb_S400x16_S400x16_0_0

/-- What the output window's staging buffer holds after the body: the payload of the input buffers, stored whole. -/
def out1_3 (x0 : Vec F S400x10000 .f32) (x1 : Vec F S10000x64 .f32) (x2 : Vec F S16x64 .f32) : Vec F S400x16 .f32 :=
  View.canon [⟨r1_3, k1_pay1 (View.ld x0 r1_0) (View.ld x1 r1_1) (View.ld x2 r1_2)⟩]

/-- The one store covers the buffer. -/
theorem cover1_3 (p0 : Vec F S400x16 .f32) (y : S400x16.Idx) :
    ∃ pc ∈ ([⟨r1_3, p0⟩] : List (View.Piece (Elt F) S400x16 .f32)), y ∈ pc.1.set :=
  View.cover_of_tiled [⟨r1_3, p0⟩] S400x16.size (by rfl) y

set_option maxHeartbeats 1000000 in
/-- The body on whole staging buffers, the inputs' at contents `x` and the output's at anything, runs to its end with the
    inputs' buffers unchanged and the output's at `out1_3` of the inputs'. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S16x64 .f32) (harg3 : arg3.IsWhole) (arg4 : Memref sig .tc .vmem S400x16 .f32) (harg4 : arg4.IsWhole)
    (x0 : Vec F S400x10000 .f32) (x1 : Vec F S10000x64 .f32) (x2 : Vec F S16x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__layer1_kernel i arg1 harg1 arg2 harg2 arg3 harg3 arg4 harg4) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body at point `t` each input
    window's buffer at its block and the output's at the payload of the input blocks; the invariant is the rest of
    the core's scoped memory and its generator register, untouched; nothing is owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Pass

end
-- ==== Proof.Kernel.Call2.lean ====
/-
  Pallas call 2 of the forward pass — a slab of 400 rows of A V from the slab's 400 rows of A and the whole of V — at the contents `V` the
  TensorCore's arrays hold when the call is entered. A window's block at a grid point is the part of its array the
  point's index map selects (`iblk2`); the body reads its input windows' staging buffers whole, applies the payload
  `k2_pay1` and stores the result over the whole of the output window's buffer, so after the body that buffer holds
  the payload of the input blocks (`out2_2`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.Kernel.Launch
import proofs.«175761_g11158325035213_week1_w3_1130_5_alg».proof.Proof.Gen.Kernel.Skeleton
import proofs.«175761_g11158325035213_week1_w3_1130_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every point, whether the point fetches it or not (an
    unfetched window's block index has not moved since the fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block of the array at every point, whether the point fetches it or not (an
    unfetched window's block index has not moved since the fetch). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole of each window's staging buffer: the rectangle every load and the one store of the body go through. -/
abbrev r2_0 : Rect S400x10000 := Rect.unit (s := S400x10000) ![0, 0] S400x10000.size inb_S400x10000_S400x10000_0_0
abbrev r2_1 : Rect S10000x16 := Rect.unit (s := S10000x16) ![0, 0] S10000x16.size inb_S10000x16_S10000x16_0_0
abbrev r2_2 : Rect S400x16 := Rect.unit (s := S400x16) ![0, 0] S400x16.size inb_S400x16_S400x16_0_0

/-- What the output window's staging buffer holds after the body: the payload of the input buffers, stored whole. -/
def out2_2 (x0 : Vec F S400x10000 .f32) (x1 : Vec F S10000x16 .f32) : Vec F S400x16 .f32 :=
  View.canon [⟨r2_2, k2_pay1 (View.ld x0 r2_0) (View.ld x1 r2_1)⟩]

/-- The one store covers the buffer. -/
theorem cover2_2 (p0 : Vec F S400x16 .f32) (y : S400x16.Idx) :
    ∃ pc ∈ ([⟨r2_2, p0⟩] : List (View.Piece (Elt F) S400x16 .f32)), y ∈ pc.1.set :=
  View.cover_of_tiled [⟨r2_2, p0⟩] S400x16.size (by rfl) y

set_option maxHeartbeats 1000000 in
/-- The body on whole staging buffers, the inputs' at contents `x` and the output's at anything, runs to its end with the
    inputs' buffers unchanged and the output's at `out2_2` of the inputs'. -/
theorem sound_kernel2 (c : Dev nD) (E : Set ℕ) (i : grid2.Coords) (arg1 : Memref sig .tc .vmem S400x10000 .f32) (harg1 : arg1.IsWhole) (arg2 : Memref sig .tc .vmem S10000x16 .f32) (harg2 : arg2.IsWhole) (arg3 : Memref sig .tc .vmem S400x16 .f32) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__layer2_kernel i arg1 harg1 arg2 harg2 arg3 harg3) K := by
  simp only [cc2__layer2_kernel_eq_skeleton]; unfold cc2__layer2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the call finds them; after the body at point `t` each input
    window's buffer at its block and the output's at the payload of the input blocks; the invariant is the rest of
    the core's scoped memory and its generator register, untouched; nothing is owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Pass

end
-- ==== Proof.Kernel.Call3.lean ====
/-
  Pallas call 3 of the forward pass — a slab of 400 rows of logistic(Z Zᵀ) from the slab's 400 rows of Z and the whole of Z (one array read through two windows) — at the contents `V` the
  TensorCore's arrays hold when the call is entered. A window's block at a grid point is the part of its array the
  point's index map selects (`iblk3`); the body reads its input windows' staging buffers whole, applies the payload
  `k3_pay1` and stores the result over the whole of the output window's buffer, so after the body that buffer holds
  the payload of the input blocks (`out3_2`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.Kernel.Launch
import proofs.«175761_g11158325035213_week1_w3_1130_5_alg».proof.Proof.Gen.Kernel.Skeleton
import proofs.«175761_g11158325035213_week1_w3_1130_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block of the array at every point, whether the point fetches it or not (an
    unfetched window's block index has not moved since the fetch). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block of the array at every point, whether the point fetches it or not (an
    unfetched window's block index has not moved since the fetch). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole of each window's staging buffer: the rectangle every load and the one store of the body go through. -/
abbrev r3_0 : Rect S400x16 := Rect.unit (s := S400x16) ![0, 0] S400x16.size inb_S400x16_S400x16_0_0
abbrev r3_1 : Rect S10000x16 := Rect.unit (s := S10000x16) ![0, 0] S10000x16.size inb_S10000x16_S10000x16_0_0
abbrev r3_2 : Rect S400x10000 := Rect.unit (s := S400x10000) ![0, 0] S400x10000.size inb_S400x10000_S400x10000_0_0

/-- What the output window's staging buffer holds after the body: the payload of the input buffers, stored whole. -/
def out3_2 (x0 : Vec F S400x16 .f32) (x1 : Vec F S10000x16 .f32) : Vec F S400x10000 .f32 :=
  View.canon [⟨r3_2, k3_pay1 (View.ld x0 r3_0) (View.ld x1 r3_1)⟩]

/-- The one store covers the buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body on whole staging buffers, the inputs' at contents `x` and the output's at anything, runs to its end with the
    inputs' buffers unchanged and the output's at `out3_2` of the inputs'. -/
theorem sound_kernel3 (c : Dev nD) (E : Set ℕ) (i : grid3.Coords) (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__decoder_kernel i arg1 harg1 arg2 harg2 arg3 harg3) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the call finds them; after the body at point `t` each input
    window's buffer at its block and the output's at the payload of the input blocks; the invariant is the rest of
    the core's scoped memory and its generator register, untouched; nothing is owed to another core; the array the
    two input windows both read is held half by each of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation3 (c : Dev nD) : BodyObligation (dat3 (F := F) V c) (defs₀ (F := F)) Variants.none () Set.univ := fun t => by
  rw [bigSep_W3, bigSep_W3]
  exact sound_body3 V c t

end Cert.Kernel.Pass

end
-- ==== Proof.Kernel.Flow.lean ====
/-
  The whole forward pass as one run. @main is a stretch of two host constants followed by the four Pallas calls, each
  entered with the TensorCore's unscoped buffers at what the item before it left. The contents at the five boundaries
  are a fold from the launch memory: the host constants written (`W1`), then after each call its output array at what
  the pipeline's write-backs leave and every other buffer untouched (`W2` … `W5`). Calls 0, 1 and 2 read distinct
  arrays; call 3 reads ONE array, the latent code, through two windows (its slab of rows, and the whole), so the
  array is held half by each window while the call runs and whole again after it. The run: every weakly fair
  execution from any memory with zero counters terminates without a fault with every unscoped buffer at `W5`.
  Everything here holds for any float instance.
-/
import proofs.«175761_g11158325035213_week1_w3_1130_5_alg».proof.Proof.Kernel.Call0
import proofs.«175761_g11158325035213_week1_w3_1130_5_alg».proof.Proof.Kernel.Call1
import proofs.«175761_g11158325035213_week1_w3_1130_5_alg».proof.Proof.Kernel.Call2
import proofs.«175761_g11158325035213_week1_w3_1130_5_alg».proof.Proof.Kernel.Call3

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two host constants (call 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At call 0's exit: its arrays at what the pipeline's write-backs leave (an input as entered, the output's blocks
    written back point after point), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline's write-backs leave (an input as entered, the output's blocks
    written back point after point), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the pipeline's write-backs leave (an input as entered, the output's blocks
    written back point after point), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The latent code's buffer and the result's, the two buffers call 3's windows are on. -/
abbrev zRef : DevRef τ sig := Proc.devRef .tc main_v2
abbrev aRef : DevRef τ sig := Proc.devRef .tc main_v3

/-- At call 3's exit: the result array at what the write-backs leave, every other buffer (the latent code too, which the
    call only reads) as entered. -/
def W5 (c : Dev nD) : Valuation τ sig (Elt F) :=
  Function.update (W4 m ρ c) aRef ((dat3 (V4 m ρ) c).arrAt 2 cfg3.N)
theorem W5_out (c : Dev nD) : W5 m ρ c aRef = (dat3 (V4 m ρ) c).arrAt 2 cfg3.N := by
  unfold W5; exact Function.update_self ..
theorem W5_of_ne (c : Dev nD) (b : DevRef τ sig) (hb : b ≠ aRef) : W5 m ρ c b = W4 m ρ c b := by
  unfold W5; exact Function.update_of_ne hb _ _

/-! ## The proof data family and the thread state -/

/-- No pipeline has a prefetched table. -/
abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host constant allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## Calls 0, 1, 2 as segments -/

set_option backward.isDefEq.respectTransparency.types false in
/-- CALL 0 as a segment: entered with every unscoped buffer at `W1`, left with them at `W2`. Its windows' arrays are
    taken out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 as a segment: entered with every unscoped buffer at `W2`, left with them at `W3`. Its windows' arrays are
    taken out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 as a segment: entered with every unscoped buffer at `W3`, left with them at `W4`. Its windows' arrays are
    taken out of the unscoped buffers at entry and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Pass

end
-- ==== Proof.Kernel.Whole.lean ====
/-
  Call 3 of the forward pass as a segment, and the run of the whole of @main. Call 3 reads the latent code Z
  through two windows (a slab of 400 rows, and all of it) and writes the reconstruction through a third. At its entry
  the buffer of Z, held whole, is split in two halves, one for each reading window; at its exit the halves, both still
  at Z since neither window writes, are joined again. The result's buffer goes in whole and comes back at what the
  write-backs leave. Every other unscoped buffer passes by untouched.
-/
import proofs.«175761_g11158325035213_week1_w3_1130_5_alg».proof.Proof.Kernel.Flow

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two buffers call 3's windows are on -/

abbrev T3 : Finset (DevRef τ sig) := {zRef, aRef}
theorem z_ne_a : (zRef : DevRef τ sig) ≠ aRef := StableHlo.devRef_ne_of_ne (by decide)
theorem T3_sub : T3 ⊆ Pipeline.ucRefs τ sig := by
  intro b hb
  rcases Finset.mem_insert.mp hb with rfl | hb
  · exact mem_uc main_v2 (by decide)
  · rw [Finset.mem_singleton.mp hb]; exact mem_uc main_v3 (by decide)

/-- The two buffers held at a valuation, one by one. -/
theorem held_T3 (c : Dev nD) (V : Valuation τ sig (Elt F)) :
    (StableHlo.held (c : Thread nD τ) T3 V : sProp 𝕄)
      = iprop((((c : Thread nD τ).1, zRef) ↦{fullShare} V zRef) ∗ (((c : Thread nD τ).1, aRef) ↦{fullShare} V aRef)) := by
  unfold StableHlo.held
  rw [BI.bigSep_insert (by rw [Finset.mem_singleton]; exact z_ne_a), BI.bigSep_singleton]
  rfl

/-- Call 3's arrays as its proof data hold them: the latent code's buffer half and half, the result's whole. -/
theorem arrays3 (c : Dev nD) (Vv : (c : Dev nD) → (b : Ref sig .tc) → Buf (Elt F) ((c : Thread nD τ).loc b))
    (Fn : (w : Fin cfg3.W) → Buf (Elt F) ((cfg3.win w).arr.view.loc (c.tc : Thread nD τ))) :
    ((dat3 Vv c).arrays Fn : sProp 𝕄)
      = iprop((((c : Thread nD τ).1, zRef) ↦{fullShare.left} Fn 0) ∗ (((c : Thread nD τ).1, zRef) ↦{fullShare.right} Fn 1)
          ∗ (((c : Thread nD τ).1, aRef) ↦{fullShare} Fn 2)) := by
  unfold Dat.arrays
  rw [bigSep_W3]
  rw [(arr_whole3 0).set_eq_univ, (arr_whole3 2).set_eq_univ]
  rfl

/-- ENTRY of call 3: of the unscoped buffers at `W4`, the latent code's goes half to each reading window, the result's
    whole to the writing one, the others pass by. -/
theorem entry3 (c : Dev nD) :
    (StableHlo.held (c : Thread nD τ) (Pipeline.ucRefs τ sig) (W4 m ρ c) : sProp 𝕄)
      ⊢ iprop((dat3 (V4 m ρ) c).arrays ((dat3 (V4 m ρ) c).arrAt · 0)
          ∗ StableHlo.held (c : Thread nD τ) (Pipeline.ucRefs τ sig \ T3) (W4 m ρ c)) := by
  rw [StableHlo.held_sub_split (c := (c : Thread nD τ)) T3_sub, held_T3, arrays3]
  iintro ⟨⟨Hz, Ha⟩, Hrest⟩
  ihave Hz' := (pointsTo_share (PosShare.mem_left_op_right fullShare)).1 $$ Hz
  icases Hz' with ⟨Hz1, Hz2⟩
  isplitr [Hrest]
  · isplitl [Hz1]; · iexact Hz1
    isplitl [Hz2]; · iexact Hz2
    iexact Ha
  iexact Hrest

/-- EXIT of call 3: the two halves of the latent code's buffer, both as entered, are the whole again; the result's
    buffer is at what the write-backs leave; with the buffers that passed by, that is every unscoped buffer at `W5`. -/
theorem exit3 (c : Dev nD) :
    iprop((dat3 (V4 m ρ) c).arrays ((dat3 (V4 m ρ) c).arrAt · cfg3.N)
        ∗ StableHlo.held (c : Thread nD τ) (Pipeline.ucRefs τ sig \ T3) (W4 m ρ c))
      ⊢ (StableHlo.held (c : Thread nD τ) (Pipeline.ucRefs τ sig) (W5 m ρ c) : sProp 𝕄) := by
  rw [StableHlo.held_sub_split (c := (c : Thread nD τ)) T3_sub (W5 m ρ c), held_T3, arrays3,
    StableHlo.held_congr (c := (c : Thread nD τ)) (S := Pipeline.ucRefs τ sig \ T3) (V := W5 m ρ c) (V' := W4 m ρ c)
      (fun b hb => W5_of_ne m ρ c b (fun e => (Finset.mem_sdiff.mp hb).2 (by rw [e]; exact Finset.mem_insert_of_mem (Finset.mem_singleton_self _)))),
    W5_out, W5_of_ne m ρ c zRef z_ne_a]
  have h0 : (dat3 (V4 m ρ) c).arrAt 0 cfg3.N = (dat3 (V4 m ρ) c).arrAt 0 0 := ((dat3 (V4 m ρ) c).arrAt_in 0 rfl _).trans ((dat3 (V4 m ρ) c).arrAt_in 0 rfl _).symm
  have h1 : (dat3 (V4 m ρ) c).arrAt 1 cfg3.N = (dat3 (V4 m ρ) c).arrAt 0 0 := ((dat3 (V4 m ρ) c).arrAt_in 1 rfl _).trans ((dat3 (V4 m ρ) c).arrAt_in 0 rfl _).symm
  dsimp only
  rw [h0, h1]
  iintro ⟨⟨Hz1, Hz2, Ha⟩, Hrest⟩
  isplitr [Hrest]
  · isplitl [Hz1 Hz2]
    · ihave Hz := (pointsTo_share (PosShare.mem_left_op_right fullShare)).2 $$ [Hz1 Hz2]
      · isplitl [Hz1] <;> iassumption
      iexact Hz
    iexact Ha
  iexact Hrest

/-! ## Call 3 as a segment -/

set_option backward.isDefEq.respectTransparency.types false in
/-- CALL 3 as a segment: entered with every unscoped buffer at `W4`, left with them at `W5`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := StableHlo.held (c : Thread nD τ) (Pipeline.ucRefs τ sig \ T3) (W4 m ρ c)
  hentry c := by
    rw [Pipeline.ownSems0_none]
    have hsplit : (StableHlo.held (c : Thread nD τ) (Pipeline.ucRefs τ sig) (W4 m ρ c) : sProp 𝕄)
        ⊢ iprop((pdats m ρ 3 c).arrays ((pdats m ρ 3 c).arrAt · 0)
            ∗ StableHlo.held (c : Thread nD τ) (Pipeline.ucRefs τ sig \ T3) (W4 m ρ c)) := entry3 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
          ∗ StableHlo.held (c : Thread nD τ) (Pipeline.ucRefs τ sig \ T3) (W4 m ρ c))
        ⊢ (StableHlo.held (c : Thread nD τ) (Pipeline.ucRefs τ sig) (W5 m ρ c) : sProp 𝕄) := exit3 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five items in order: the host constants, then the four calls. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Pass

end
-- ==== Proof.Kernel.Ends.lean ====
/-
  The forward pass's final contents read back at the buffers the claims speak of: each of the four argument arrays ends
  holding what it held at launch (the host constants are written elsewhere; a call that has the array on a window only
  reads it, and a window that is only read is never written back), and the two integer results end at the constant
  zero the host wrote, which no call touches. For any float instance.
-/
import proofs.«175761_g11158325035213_week1_w3_1130_5_alg».proof.Proof.Kernel.Flow
import Idealize.ShloMosaic.Lib.StableHlo.Run

set_option maxRecDepth 16384

noncomputable section

namespace Cert.Kernel.Pass

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A call never writes back an array it only reads. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- A call never writes back an array it only reads. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- A call never writes back an array it only reads. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-- `main_arg0` ends as launched: the host constants do not write it and every call that touches it only reads it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c _ (StableHlo.devRef_ne_of_ne (by decide))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := StableHlo.after_of_forall_not_mem (b := Proc.devRef .tc main_arg0) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg0) := rfl

/-- `main_arg1` ends as launched: the host constants do not write it and every call that touches it only reads it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c _ (StableHlo.devRef_ne_of_ne (by decide))
    _ = W3 m ρ c (Proc.devRef .tc main_arg1) := W4_in m ρ c 0 rfl
    _ = W2 m ρ c (Proc.devRef .tc main_arg1) := W3_in m ρ c 0 rfl
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg1) := rfl

/-- `main_arg2` ends as launched: the host constants do not write it and every call that touches it only reads it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c _ (StableHlo.devRef_ne_of_ne (by decide))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_in m ρ c 1 rfl
    _ = W0 m ρ c (Proc.devRef .tc main_arg2) := StableHlo.after_of_forall_not_mem (b := Proc.devRef .tc main_arg2) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg2) := rfl

/-- `main_arg3` ends as launched: the host constants do not write it and every call that touches it only reads it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c _ (StableHlo.devRef_ne_of_ne (by decide))
    _ = W3 m ρ c (Proc.devRef .tc main_arg3) := W4_of_ne m ρ c main_arg3 (by decide)
    _ = W2 m ρ c (Proc.devRef .tc main_arg3) := W3_in m ρ c 2 rfl
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg3) := rfl

/-- `main_c` ends at the host constant written to it: no call touches it. -/
theorem W5_main_c (c : Dev nD) : W5 m ρ c (Proc.devRef .tc main_c) = constantI S1 32 0#32 :=
  calc W5 m ρ c (Proc.devRef .tc main_c)
    _ = W4 m ρ c (Proc.devRef .tc main_c) := W5_of_ne m ρ c _ (StableHlo.devRef_ne_of_ne (by decide))
    _ = W3 m ρ c (Proc.devRef .tc main_c) := W4_of_ne m ρ c main_c (by decide)
    _ = W2 m ρ c (Proc.devRef .tc main_c) := W3_of_ne m ρ c main_c (by decide)
    _ = W1 m ρ c (Proc.devRef .tc main_c) := W2_of_ne m ρ c main_c (by decide)
    _ = constantI S1 32 0#32 := by
      show StableHlo.after hostOps0 _ (Proc.devRef .tc main_c) = _
      after_results <;> rfl

/-- `main_c_0` ends at the host constant written to it: no call touches it. -/
theorem W5_main_c_0 (c : Dev nD) : W5 m ρ c (Proc.devRef .tc main_c_0) = constantI S1 32 0#32 :=
  calc W5 m ρ c (Proc.devRef .tc main_c_0)
    _ = W4 m ρ c (Proc.devRef .tc main_c_0) := W5_of_ne m ρ c _ (StableHlo.devRef_ne_of_ne (by decide))
    _ = W3 m ρ c (Proc.devRef .tc main_c_0) := W4_of_ne m ρ c main_c_0 (by decide)
    _ = W2 m ρ c (Proc.devRef .tc main_c_0) := W3_of_ne m ρ c main_c_0 (by decide)
    _ = W1 m ρ c (Proc.devRef .tc main_c_0) := W2_of_ne m ρ c main_c_0 (by decide)
    _ = constantI S1 32 0#32 := by
      show StableHlo.after hostOps0 _ (Proc.devRef .tc main_c_0) = _
      after_results <;> rfl

end Cert.Kernel.Pass

end
-- ==== Proof.KernelIdeal.Call0.lean ====
/-
  Pallas call 0 of the forward pass — the first layer's features X W1ᵀ, computed whole at the one point of a gridless call — at the contents `V` the
  TensorCore's arrays hold when the call is entered. A window's block at a grid point is the part of its array the
  point's index map selects (`iblk0`); the body reads its input windows' staging buffers whole, applies the payload
  `k0_pay1` and stores the result over the whole of the output window's buffer, so after the body that buffer holds
  the payload of the input blocks (`out0_2`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.KernelIdeal.Launch
import proofs.«175761_g11158325035213_week1_w3_1130_5_alg».proof.Proof.Gen.KernelIdeal.Skeleton
import proofs.«175761_g11158325035213_week1_w3_1130_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block of the array at every point, whether the point fetches it or not (an
    unfetched window's block index has not moved since the fetch). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block of the array at every point, whether the point fetches it or not (an
    unfetched window's block index has not moved since the fetch). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole of each window's staging buffer: the rectangle every load and the one store of the body go through. -/
abbrev r0_0 : Rect S10000x128 := Rect.unit (s := S10000x128) ![0, 0] S10000x128.size inb_S10000x128_S10000x128_0_0
abbrev r0_1 : Rect S64x128 := Rect.unit (s := S64x128) ![0, 0] S64x128.size inb_S64x128_S64x128_0_0
abbrev r0_2 : Rect S10000x64 := Rect.unit (s := S10000x64) ![0, 0] S10000x64.size inb_S10000x64_S10000x64_0_0

/-- What the output window's staging buffer holds after the body: the payload of the input buffers, stored whole. -/
def out0_2 (x0 : Vec F S10000x128 .f32) (x1 : Vec F S64x128 .f32) : Vec F S10000x64 .f32 :=
  View.canon [⟨r0_2, k0_pay1 (View.ld x0 r0_0) (View.ld x1 r0_1)⟩]

/-- The one store covers the buffer. -/
theorem cover0_2 (p0 : Vec F S10000x64 .f32) (y : S10000x64.Idx) :
    ∃ pc ∈ ([⟨r0_2, p0⟩] : List (View.Piece (Elt F) S10000x64 .f32)), y ∈ pc.1.set :=
  View.cover_of_tiled [⟨r0_2, p0⟩] S10000x64.size (by rfl) y

set_option maxHeartbeats 1000000 in
/-- The body on whole staging buffers, the inputs' at contents `x` and the output's at anything, runs to its end with the
    inputs' buffers unchanged and the output's at `out0_2` of the inputs'. -/
theorem sound_kernel0 (c : Dev nD) (E : Set ℕ) (arg0 : Memref sig .tc .vmem S10000x128 .f32) (harg0 : arg0.IsWhole) (arg1 : Memref sig .tc .vmem S64x128 .f32) (harg1 : arg1.IsWhole) (arg2 : Memref sig .tc .vmem S10000x64 .f32) (harg2 : arg2.IsWhole)
    (x0 : Vec F S10000x128 .f32) (x1 : Vec F S64x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__linear_kernel arg0 harg0 arg1 harg1 arg2 harg2) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The pipeline's proof data on core `c`: the arrays as the call finds them; after the body at point `t` each input
    window's buffer at its block and the output's at the payload of the input blocks; the invariant is the rest of
    the core's scoped memory and its generator register, untouched; nothing is owed to another core. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Pass

end
-- ==== Proof.KernelIdeal.Call1.lean ====
/-
  Pallas call 1 of the forward pass — a slab of 400 rows of relu(A U) W2ᵀ from the slab's 400 rows of A, the whole of U and the whole of W2 — at the contents `V` the
  TensorCore's arrays hold when the call is entered. A window's block at a grid point is the part of its array the
  point's index map selects (`iblk1`); the body reads its input windows' staging buffers whole, applies the payload
  `k1_pay1` and stores the result over the whole of the output window's buffer, so after the body that buffer holds
  the payload of the input blocks (`out1_3`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.KernelIdeal.Launch
import proofs.«175761_g11158325035213_week1_w3_1130_5_alg».proof.Proof.Gen.KernelIdeal.Skeleton
import proofs.«175761_g11158325035213_week1_w3_1130_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block of the array at every point, whether the point fetches it or not (an
    unfetched window's block index has not moved since the fetch). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block of the array at every point, whether the point fetches it or not (an
    unfetched window's block index has not moved since the fetch). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block of the array at every point, whether the point fetches it or not (an
    unfetched window's block index has not moved since the fetch). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole of each window's staging buffer: the rectangle every load and the one store of the body go through. -/
abbrev r1_0 : Rect S400x10000 := Rect.unit (s := S400x10000) ![0, 0] S400x10000.size inb_S400x10000_S400x10000_0_0
abbrev r1_1 : Rect S10000x64 := Rect.unit (s := S10000x64) ![0, 0] S10000x64.size inb_S10000x64_S10000x64_0_0
abbrev r1_2 : Rect S16x64 := Rect.unit (s := S16x64) ![0, 0] S16x64.size inb_S16x64_S16x64_0_0
abbrev r1_3 : Rect S400x16 := Rect.unit (s := S400x16) ![0, 0] S400x16.size inb_S400x16_S400x16_0_0

/-- What the output window's staging buffer holds after the body: the payload of the input buffers, stored whole. -/
def out1_3 (x0 : Vec F S400x10000 .f32) (x1 : Vec F S10000x64 .f32) (x2 : Vec F S16x64 .f32) : Vec F S400x16 .f32 :=
  View.canon [⟨r1_3, k1_pay1 (View.ld x0 r1_0) (View.ld x1 r1_1) (View.ld x2 r1_2)⟩]

/-- The one store covers the buffer. -/
theorem cover1_3 (p0 : Vec F S400x16 .f32) (y : S400x16.Idx) :
    ∃ pc ∈ ([⟨r1_3, p0⟩] : List (View.Piece (Elt F) S400x16 .f32)), y ∈ pc.1.set :=
  View.cover_of_tiled [⟨r1_3, p0⟩] S400x16.size (by rfl) y

set_option maxHeartbeats 1000000 in
/-- The body on whole staging buffers, the inputs' at contents `x` and the output's at anything, runs to its end with the
    inputs' buffers unchanged and the output's at `out1_3` of the inputs'. -/
theorem sound_kernel1 (c : Dev nD) (E : Set ℕ) (i : grid1.Coords) (arg1 : Memref sig .tc .vmem S400x10000 .f32) (harg1 : arg1.IsWhole) (arg2 : Memref sig .tc .vmem S10000x64 .f32) (harg2 : arg2.IsWhole) (arg3 : Memref sig .tc .vmem S16x64 .f32) (harg3 : arg3.IsWhole) (arg4 : Memref sig .tc .vmem S400x16 .f32) (harg4 : arg4.IsWhole)
    (x0 : Vec F S400x10000 .f32) (x1 : Vec F S10000x64 .f32) (x2 : Vec F S16x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__layer1_kernel i arg1 harg1 arg2 harg2 arg3 harg3 arg4 harg4) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data on core `c`: the arrays as the call finds them; after the body at point `t` each input
    window's buffer at its block and the output's at the payload of the input blocks; the invariant is the rest of
    the core's scoped memory and its generator register, untouched; nothing is owed to another core. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation to the pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Pass

end
-- ==== Proof.KernelIdeal.Call2.lean ====
/-
  Pallas call 2 of the forward pass — a slab of 400 rows of A V from the slab's 400 rows of A and the whole of V — at the contents `V` the
  TensorCore's arrays hold when the call is entered. A window's block at a grid point is the part of its array the
  point's index map selects (`iblk2`); the body reads its input windows' staging buffers whole, applies the payload
  `k2_pay1` and stores the result over the whole of the output window's buffer, so after the body that buffer holds
  the payload of the input blocks (`out2_2`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.KernelIdeal.Launch
import proofs.«175761_g11158325035213_week1_w3_1130_5_alg».proof.Proof.Gen.KernelIdeal.Skeleton
import proofs.«175761_g11158325035213_week1_w3_1130_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block of the array at every point, whether the point fetches it or not (an
    unfetched window's block index has not moved since the fetch). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block of the array at every point, whether the point fetches it or not (an
    unfetched window's block index has not moved since the fetch). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole of each window's staging buffer: the rectangle every load and the one store of the body go through. -/
abbrev r2_0 : Rect S400x10000 := Rect.unit (s := S400x10000) ![0, 0] S400x10000.size inb_S400x10000_S400x10000_0_0
abbrev r2_1 : Rect S10000x16 := Rect.unit (s := S10000x16) ![0, 0] S10000x16.size inb_S10000x16_S10000x16_0_0
abbrev r2_2 : Rect S400x16 := Rect.unit (s := S400x16) ![0, 0] S400x16.size inb_S400x16_S400x16_0_0

/-- What the output window's staging buffer holds after the body: the payload of the input buffers, stored whole. -/
def out2_2 (x0 : Vec F S400x10000 .f32) (x1 : Vec F S10000x16 .f32) : Vec F S400x16 .f32 :=
  View.canon [⟨r2_2, k2_pay1 (View.ld x0 r2_0) (View.ld x1 r2_1)⟩]

/-- The one store covers the buffer. -/
theorem cover2_2 (p0 : Vec F S400x16 .f32) (y : S400x16.Idx) :
    ∃ pc ∈ ([⟨r2_2, p0⟩] : List (View.Piece (Elt F) S400x16 .f32)), y ∈ pc.1.set :=
  View.cover_of_tiled [⟨r2_2, p0⟩] S400x16.size (by rfl) y

set_option maxHeartbeats 1000000 in
/-- The body on whole staging buffers, the inputs' at contents `x` and the output's at anything, runs to its end with the
    inputs' buffers unchanged and the output's at `out2_2` of the inputs'. -/
theorem sound_kernel2 (c : Dev nD) (E : Set ℕ) (i : grid2.Coords) (arg1 : Memref sig .tc .vmem S400x10000 .f32) (harg1 : arg1.IsWhole) (arg2 : Memref sig .tc .vmem S10000x16 .f32) (harg2 : arg2.IsWhole) (arg3 : Memref sig .tc .vmem S400x16 .f32) (harg3 : arg3.IsWhole)
    (x0 : Vec F S400x10000 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__layer2_kernel i arg1 harg1 arg2 harg2 arg3 harg3) K := by
  simp only [cc2__layer2_kernel_eq_skeleton]; unfold cc2__layer2_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The pipeline's proof data on core `c`: the arrays as the call finds them; after the body at point `t` each input
    window's buffer at its block and the output's at the payload of the input blocks; the invariant is the rest of
    the core's scoped memory and its generator register, untouched; nothing is owed to another core. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Pass

end
-- ==== Proof.KernelIdeal.Call3.lean ====
/-
  Pallas call 3 of the forward pass — a slab of 400 rows of logistic(Z Zᵀ) from the slab's 400 rows of Z and the whole of Z (one array read through two windows) — at the contents `V` the
  TensorCore's arrays hold when the call is entered. A window's block at a grid point is the part of its array the
  point's index map selects (`iblk3`); the body reads its input windows' staging buffers whole, applies the payload
  `k3_pay1` and stores the result over the whole of the output window's buffer, so after the body that buffer holds
  the payload of the input blocks (`out3_2`) and the inputs' buffers hold what they held. From that: the proof data of
  the call's pipeline (each input window's buffer at its block at every point, the output's at the payload of the
  blocks) and the body's obligation at every grid point. Everything here holds for any float instance.
-/
import proofs.«175761_g11158325035213_week1_w3_1130_5_alg».proof.Proof.Gen.KernelIdeal.Launch
import proofs.«175761_g11158325035213_week1_w3_1130_5_alg».proof.Proof.Gen.KernelIdeal.Skeleton
import proofs.«175761_g11158325035213_week1_w3_1130_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block of the array at every point, whether the point fetches it or not (an
    unfetched window's block index has not moved since the fetch). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block of the array at every point, whether the point fetches it or not (an
    unfetched window's block index has not moved since the fetch). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole of each window's staging buffer: the rectangle every load and the one store of the body go through. -/
abbrev r3_0 : Rect S400x16 := Rect.unit (s := S400x16) ![0, 0] S400x16.size inb_S400x16_S400x16_0_0
abbrev r3_1 : Rect S10000x16 := Rect.unit (s := S10000x16) ![0, 0] S10000x16.size inb_S10000x16_S10000x16_0_0
abbrev r3_2 : Rect S400x10000 := Rect.unit (s := S400x10000) ![0, 0] S400x10000.size inb_S400x10000_S400x10000_0_0

/-- What the output window's staging buffer holds after the body: the payload of the input buffers, stored whole. -/
def out3_2 (x0 : Vec F S400x16 .f32) (x1 : Vec F S10000x16 .f32) : Vec F S400x10000 .f32 :=
  View.canon [⟨r3_2, k3_pay1 (View.ld x0 r3_0) (View.ld x1 r3_1)⟩]

/-- The one store covers the buffer. -/
theorem cover3_2 (p0 : Vec F S400x10000 .f32) (y : S400x10000.Idx) :
    ∃ pc ∈ ([⟨r3_2, p0⟩] : List (View.Piece (Elt F) S400x10000 .f32)), y ∈ pc.1.set :=
  View.cover_of_tiled [⟨r3_2, p0⟩] S400x10000.size (by rfl) y

set_option maxHeartbeats 1000000 in
/-- The body on whole staging buffers, the inputs' at contents `x` and the output's at anything, runs to its end with the
    inputs' buffers unchanged and the output's at `out3_2` of the inputs'. -/
theorem sound_kernel3 (c : Dev nD) (E : Set ℕ) (i : grid3.Coords) (arg1 : Memref sig .tc .vmem S400x16 .f32) (harg1 : arg1.IsWhole) (arg2 : Memref sig .tc .vmem S10000x16 .f32) (harg2 : arg2.IsWhole) (arg3 : Memref sig .tc .vmem S400x10000 .f32) (harg3 : arg3.IsWhole)
    (x0 : Vec F S400x16 .f32) (x1 : Vec F S10000x16 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__decoder_kernel i arg1 harg1 arg2 harg2 arg3 harg3) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The pipeline's proof data on core `c`: the arrays as the call finds them; after the body at point `t` each input
    window's buffer at its block and the output's at the payload of the input blocks; the invariant is the rest of
    the core's scoped memory and its generator register, untouched; nothing is owed to another core; the array the
    two input windows both read is held half by each of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so the body's triple applies; the invariant and what the
    core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation to the pipeline, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Pass

end
-- ==== Proof.KernelIdeal.Flow.lean ====
/-
  The whole forward pass as one run. @main is a stretch of two host constants followed by the four Pallas calls, each
  entered with the TensorCore's unscoped buffers at what the item before it left. The contents at the five boundaries
  are a fold from the launch memory: the host constants written (`W1`), then after each call its output array at what
  the pipeline's write-backs leave and every other buffer untouched (`W2` … `W5`). Calls 0, 1 and 2 read distinct
  arrays; call 3 reads ONE array, the latent code, through two windows (its slab of rows, and the whole), so the
  array is held half by each window while the call runs and whole again after it. The run: every weakly fair
  execution from any memory with zero counters terminates without a fault with every unscoped buffer at `W5`.
  Everything here holds for any float instance.
-/
import proofs.«175761_g11158325035213_week1_w3_1130_5_alg».proof.Proof.KernelIdeal.Call0
import proofs.«175761_g11158325035213_week1_w3_1130_5_alg».proof.Proof.KernelIdeal.Call1
import proofs.«175761_g11158325035213_week1_w3_1130_5_alg».proof.Proof.KernelIdeal.Call2
import proofs.«175761_g11158325035213_week1_w3_1130_5_alg».proof.Proof.KernelIdeal.Call3

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two host constants (call 0's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b

/-- At call 0's exit: its arrays at what the pipeline's write-backs leave (an input as entered, the output's blocks
    written back point after point), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At call 1's exit: its arrays at what the pipeline's write-backs leave (an input as entered, the output's blocks
    written back point after point), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At call 2's exit: its arrays at what the pipeline's write-backs leave (an input as entered, the output's blocks
    written back point after point), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the TensorCore's references. -/
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The latent code's buffer and the result's, the two buffers call 3's windows are on. -/
abbrev zRef : DevRef τ sig := Proc.devRef .tc main_v2
abbrev aRef : DevRef τ sig := Proc.devRef .tc main_v3

/-- At call 3's exit: the result array at what the write-backs leave, every other buffer (the latent code too, which the
    call only reads) as entered. -/
def W5 (c : Dev nD) : Valuation τ sig (Elt F) :=
  Function.update (W4 m ρ c) aRef ((dat3 (V4 m ρ) c).arrAt 2 cfg3.N)
theorem W5_out (c : Dev nD) : W5 m ρ c aRef = (dat3 (V4 m ρ) c).arrAt 2 cfg3.N := by
  unfold W5; exact Function.update_self ..
theorem W5_of_ne (c : Dev nD) (b : DevRef τ sig) (hb : b ≠ aRef) : W5 m ρ c b = W4 m ρ c b := by
  unfold W5; exact Function.update_of_ne hb _ _

/-! ## The proof data family and the thread state -/

/-- No pipeline has a prefetched table. -/
abbrev adm : (p : Fin 4) → (pcfgs (F := F) p).Adm := fun p => (cfgs p).toPCfg_adm
/-- Every pipeline's proof data, each at its call's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither host constant allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## Calls 0, 1, 2 as segments -/

set_option backward.isDefEq.respectTransparency.types false in
/-- CALL 0 as a segment: entered with every unscoped buffer at `W1`, left with them at `W2`. Its windows' arrays are
    taken out of the unscoped buffers at entry and put back at the exit contents; the generator register goes into the
    pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 1 as a segment: entered with every unscoped buffer at `W2`, left with them at `W3`. Its windows' arrays are
    taken out of the unscoped buffers at entry and put back at the exit contents; the generator register goes into the
    pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- CALL 2 as a segment: entered with every unscoped buffer at `W3`, left with them at `W4`. Its windows' arrays are
    taken out of the unscoped buffers at entry and put back at the exit contents; the generator register goes into the
    pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Pass

end
-- ==== Proof.KernelIdeal.Whole.lean ====
/-
  Call 3 of the forward pass as a segment, and the run of the whole of @main. Call 3 reads the latent code Z
  through two windows (a slab of 400 rows, and all of it) and writes the reconstruction through a third. At its entry
  the buffer of Z, held whole, is split in two halves, one for each reading window; at its exit the halves, both still
  at Z since neither window writes, are joined again. The result's buffer goes in whole and comes back at what the
  write-backs leave. Every other unscoped buffer passes by untouched.
-/
import proofs.«175761_g11158325035213_week1_w3_1130_5_alg».proof.Proof.KernelIdeal.Flow

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two buffers call 3's windows are on -/

abbrev T3 : Finset (DevRef τ sig) := {zRef, aRef}
theorem z_ne_a : (zRef : DevRef τ sig) ≠ aRef := StableHlo.devRef_ne_of_ne (by decide)
theorem T3_sub : T3 ⊆ Pipeline.ucRefs τ sig := by
  intro b hb
  rcases Finset.mem_insert.mp hb with rfl | hb
  · exact mem_uc main_v2 (by decide)
  · rw [Finset.mem_singleton.mp hb]; exact mem_uc main_v3 (by decide)

/-- The two buffers held at a valuation, one by one. -/
theorem held_T3 (c : Dev nD) (V : Valuation τ sig (Elt F)) :
    (StableHlo.held (c : Thread nD τ) T3 V : sProp 𝕄)
      = iprop((((c : Thread nD τ).1, zRef) ↦{fullShare} V zRef) ∗ (((c : Thread nD τ).1, aRef) ↦{fullShare} V aRef)) := by
  unfold StableHlo.held
  rw [BI.bigSep_insert (by rw [Finset.mem_singleton]; exact z_ne_a), BI.bigSep_singleton]
  rfl

/-- Call 3's arrays as its proof data hold them: the latent code's buffer half and half, the result's whole. -/
theorem arrays3 (c : Dev nD) (Vv : (c : Dev nD) → (b : Ref sig .tc) → Buf (Elt F) ((c : Thread nD τ).loc b))
    (Fn : (w : Fin cfg3.W) → Buf (Elt F) ((cfg3.win w).arr.view.loc (c.tc : Thread nD τ))) :
    ((dat3 Vv c).arrays Fn : sProp 𝕄)
      = iprop((((c : Thread nD τ).1, zRef) ↦{fullShare.left} Fn 0) ∗ (((c : Thread nD τ).1, zRef) ↦{fullShare.right} Fn 1)
          ∗ (((c : Thread nD τ).1, aRef) ↦{fullShare} Fn 2)) := by
  unfold Dat.arrays
  rw [bigSep_W3]
  rw [(arr_whole3 0).set_eq_univ, (arr_whole3 2).set_eq_univ]
  rfl

/-- ENTRY of call 3: of the unscoped buffers at `W4`, the latent code's goes half to each reading window, the result's
    whole to the writing one, the others pass by. -/
theorem entry3 (c : Dev nD) :
    (StableHlo.held (c : Thread nD τ) (Pipeline.ucRefs τ sig) (W4 m ρ c) : sProp 𝕄)
      ⊢ iprop((dat3 (V4 m ρ) c).arrays ((dat3 (V4 m ρ) c).arrAt · 0)
          ∗ StableHlo.held (c : Thread nD τ) (Pipeline.ucRefs τ sig \ T3) (W4 m ρ c)) := by
  rw [StableHlo.held_sub_split (c := (c : Thread nD τ)) T3_sub, held_T3, arrays3]
  iintro ⟨⟨Hz, Ha⟩, Hrest⟩
  ihave Hz' := (pointsTo_share (PosShare.mem_left_op_right fullShare)).1 $$ Hz
  icases Hz' with ⟨Hz1, Hz2⟩
  isplitr [Hrest]
  · isplitl [Hz1]; · iexact Hz1
    isplitl [Hz2]; · iexact Hz2
    iexact Ha
  iexact Hrest

/-- EXIT of call 3: the two halves of the latent code's buffer, both as entered, are the whole again; the result's
    buffer is at what the write-backs leave; with the buffers that passed by, that is every unscoped buffer at `W5`. -/
theorem exit3 (c : Dev nD) :
    iprop((dat3 (V4 m ρ) c).arrays ((dat3 (V4 m ρ) c).arrAt · cfg3.N)
        ∗ StableHlo.held (c : Thread nD τ) (Pipeline.ucRefs τ sig \ T3) (W4 m ρ c))
      ⊢ (StableHlo.held (c : Thread nD τ) (Pipeline.ucRefs τ sig) (W5 m ρ c) : sProp 𝕄) := by
  rw [StableHlo.held_sub_split (c := (c : Thread nD τ)) T3_sub (W5 m ρ c), held_T3, arrays3,
    StableHlo.held_congr (c := (c : Thread nD τ)) (S := Pipeline.ucRefs τ sig \ T3) (V := W5 m ρ c) (V' := W4 m ρ c)
      (fun b hb => W5_of_ne m ρ c b (fun e => (Finset.mem_sdiff.mp hb).2 (by rw [e]; exact Finset.mem_insert_of_mem (Finset.mem_singleton_self _)))),
    W5_out, W5_of_ne m ρ c zRef z_ne_a]
  have h0 : (dat3 (V4 m ρ) c).arrAt 0 cfg3.N = (dat3 (V4 m ρ) c).arrAt 0 0 := ((dat3 (V4 m ρ) c).arrAt_in 0 rfl _).trans ((dat3 (V4 m ρ) c).arrAt_in 0 rfl _).symm
  have h1 : (dat3 (V4 m ρ) c).arrAt 1 cfg3.N = (dat3 (V4 m ρ) c).arrAt 0 0 := ((dat3 (V4 m ρ) c).arrAt_in 1 rfl _).trans ((dat3 (V4 m ρ) c).arrAt_in 0 rfl _).symm
  dsimp only
  rw [h0, h1]
  iintro ⟨⟨Hz1, Hz2, Ha⟩, Hrest⟩
  isplitr [Hrest]
  · isplitl [Hz1 Hz2]
    · ihave Hz := (pointsTo_share (PosShare.mem_left_op_right fullShare)).2 $$ [Hz1 Hz2]
      · isplitl [Hz1] <;> iassumption
      iexact Hz
    iexact Ha
  iexact Hrest

/-! ## Call 3 as a segment -/

set_option backward.isDefEq.respectTransparency.types false in
/-- CALL 3 as a segment: entered with every unscoped buffer at `W4`, left with them at `W5`. -/
def reg3 : Pipeline.RegionSeg (pcfgs (F := F)) adm (pdats m ρ) () defs₀ 𝒱₀ L lv 3 where
  win := winFacts₀3
  block_pos := block_pos3
  stage_whole := stage_whole3
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := StableHlo.held (c : Thread nD τ) (Pipeline.ucRefs τ sig \ T3) (W4 m ρ c)
  hentry c := by
    rw [Pipeline.ownSems0_none]
    have hsplit : (StableHlo.held (c : Thread nD τ) (Pipeline.ucRefs τ sig) (W4 m ρ c) : sProp 𝕄)
        ⊢ iprop((pdats m ρ 3 c).arrays ((pdats m ρ 3 c).arrAt · 0)
            ∗ StableHlo.held (c : Thread nD τ) (Pipeline.ucRefs τ sig \ T3) (W4 m ρ c)) := entry3 m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m ρ 3 c).arrays ((pdats m ρ 3 c).arrAt · cfg3.N)
          ∗ StableHlo.held (c : Thread nD τ) (Pipeline.ucRefs τ sig \ T3) (W4 m ρ c))
        ⊢ (StableHlo.held (c : Thread nD τ) (Pipeline.ucRefs τ sig) (W5 m ρ c) : sProp 𝕄) := exit3 m ρ c
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

/-- @main's five items in order: the host constants, then the four calls. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has every unscoped buffer at `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Pass

end
-- ==== Proof.KernelIdeal.Ends.lean ====
/-
  The forward pass's final contents read back at the buffers the claims speak of: each of the four argument arrays ends
  holding what it held at launch (the host constants are written elsewhere; a call that has the array on a window only
  reads it, and a window that is only read is never written back), and the two integer results end at the constant
  zero the host wrote, which no call touches. For any float instance.
-/
import proofs.«175761_g11158325035213_week1_w3_1130_5_alg».proof.Proof.KernelIdeal.Flow
import Idealize.ShloMosaic.Lib.StableHlo.Run

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A call never writes back an array it only reads. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- A call never writes back an array it only reads. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))
/-- A call never writes back an array it only reads. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-- `main_arg0` ends as launched: the host constants do not write it and every call that touches it only reads it. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c _ (StableHlo.devRef_ne_of_ne (by decide))
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_in m ρ c 0 rfl
    _ = W0 m ρ c (Proc.devRef .tc main_arg0) := StableHlo.after_of_forall_not_mem (b := Proc.devRef .tc main_arg0) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg0) := rfl

/-- `main_arg1` ends as launched: the host constants do not write it and every call that touches it only reads it. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c _ (StableHlo.devRef_ne_of_ne (by decide))
    _ = W3 m ρ c (Proc.devRef .tc main_arg1) := W4_in m ρ c 0 rfl
    _ = W2 m ρ c (Proc.devRef .tc main_arg1) := W3_in m ρ c 0 rfl
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg1) := rfl

/-- `main_arg2` ends as launched: the host constants do not write it and every call that touches it only reads it. -/
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c _ (StableHlo.devRef_ne_of_ne (by decide))
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_in m ρ c 1 rfl
    _ = W0 m ρ c (Proc.devRef .tc main_arg2) := StableHlo.after_of_forall_not_mem (b := Proc.devRef .tc main_arg2) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg2) := rfl

/-- `main_arg3` ends as launched: the host constants do not write it and every call that touches it only reads it. -/
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c _ (StableHlo.devRef_ne_of_ne (by decide))
    _ = W3 m ρ c (Proc.devRef .tc main_arg3) := W4_of_ne m ρ c main_arg3 (by decide)
    _ = W2 m ρ c (Proc.devRef .tc main_arg3) := W3_in m ρ c 2 rfl
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.Forall, StableHlo.nullary_writes, Finset.mem_singleton]
      repeat' apply And.intro
      all_goals exact StableHlo.devRef_ne_of_ne (by decide)))
    _ = m ((c : Thread nD τ).loc main_arg3) := rfl

/-- `main_c` ends at the host constant written to it: no call touches it. -/
theorem W5_main_c (c : Dev nD) : W5 m ρ c (Proc.devRef .tc main_c) = constantI S1 32 0#32 :=
  calc W5 m ρ c (Proc.devRef .tc main_c)
    _ = W4 m ρ c (Proc.devRef .tc main_c) := W5_of_ne m ρ c _ (StableHlo.devRef_ne_of_ne (by decide))
    _ = W3 m ρ c (Proc.devRef .tc main_c) := W4_of_ne m ρ c main_c (by decide)
    _ = W2 m ρ c (Proc.devRef .tc main_c) := W3_of_ne m ρ c main_c (by decide)
    _ = W1 m ρ c (Proc.devRef .tc main_c) := W2_of_ne m ρ c main_c (by decide)
    _ = constantI S1 32 0#32 := by
      show StableHlo.after hostOps0 _ (Proc.devRef .tc main_c) = _
      after_results <;> rfl

/-- `main_c_0` ends at the host constant written to it: no call touches it. -/
theorem W5_main_c_0 (c : Dev nD) : W5 m ρ c (Proc.devRef .tc main_c_0) = constantI S1 32 0#32 :=
  calc W5 m ρ c (Proc.devRef .tc main_c_0)
    _ = W4 m ρ c (Proc.devRef .tc main_c_0) := W5_of_ne m ρ c _ (StableHlo.devRef_ne_of_ne (by decide))
    _ = W3 m ρ c (Proc.devRef .tc main_c_0) := W4_of_ne m ρ c main_c_0 (by decide)
    _ = W2 m ρ c (Proc.devRef .tc main_c_0) := W3_of_ne m ρ c main_c_0 (by decide)
    _ = W1 m ρ c (Proc.devRef .tc main_c_0) := W2_of_ne m ρ c main_c_0 (by decide)
    _ = constantI S1 32 0#32 := by
      show StableHlo.after hostOps0 _ (Proc.devRef .tc main_c_0) = _
      after_results <;> rfl

end Cert.KernelIdeal.Pass

end
-- ==== Proof.KernelIdeal.Payloads.lean ====
import proofs.«175761_g11158325035213_week1_w3_1130_5_alg».proof.Proof.Gen.KernelIdeal.Skeleton
import Idealize.ShloMosaic.Lib.ValueIdx
import Idealize.ShloMosaic.Lib.Pipeline.Value
import Idealize.ShloMosaic.PureOps.Ideal.Laws

/-
  The four kernel bodies' arithmetic, read at one entry, over the extended reals.

  Each body is a short chain of whole-vector operations: a shape cast to the same shape (the identity), one or two
  matrix products into a zero accumulator, and in between or after them an entrywise maximum with zero or the
  logistic function. A matrix product with one contracted axis, read at the entry (a, b), is the finite sum over
  that axis of the products of the two operands' entries; which coordinate of each operand is the free one and
  which the contracted one is read off the product's dimension numbers. Nothing else is used: the sums appear in
  the order of their index type and no term is moved.
-/

noncomputable section

open scoped BigOperators

namespace Cert.KernelIdeal.Pay

open Cert.KernelIdeal Cert.KernelIdeal.Gen Idealize.ShloMosaic Idealize.ShloMosaic.ValueIdx

/-! ### The product of rows of the features against rows of the first weight -/

/-- The left operand's free axis reads the result's first coordinate. -/
theorem feat_lhs_free (j : S10000x64.Idx) (q : dot_S10000x128_S64x128_S10000x64_1_1_0_0_n_n.contr.Idx) :
    (dot_S10000x128_S64x128_S10000x64_1_1_0_0_n_n.lhsIdx j q 0).val = (j 0).val := by
  unfold DotDims.lhsIdx
  rw [dif_neg (show ¬(0 : Fin S10000x128.rank) ∈ dot_S10000x128_S64x128_S10000x64_1_1_0_0_n_n.lhsBatch by decide), dif_pos (show (0 : Fin S10000x128.rank) ∈ dot_S10000x128_S64x128_S10000x64_1_1_0_0_n_n.lhsNonContracting by decide)]
  rfl
/-- The left operand's contracted axis reads the contraction index. -/
theorem feat_lhs_contr (j : S10000x64.Idx) (q : dot_S10000x128_S64x128_S10000x64_1_1_0_0_n_n.contr.Idx) :
    (dot_S10000x128_S64x128_S10000x64_1_1_0_0_n_n.lhsIdx j q 1).val = (q ⟨0, by decide⟩).val :=
  dot_S10000x128_S64x128_S10000x64_1_1_0_0_n_n.lhsIdx_val_of_single rfl j q
/-- The right operand's contracted axis reads the contraction index. -/
theorem feat_rhs_contr (j : S10000x64.Idx) (q : dot_S10000x128_S64x128_S10000x64_1_1_0_0_n_n.contr.Idx) :
    (dot_S10000x128_S64x128_S10000x64_1_1_0_0_n_n.rhsIdx j q 1).val = (q ⟨0, by decide⟩).val :=
  dot_S10000x128_S64x128_S10000x64_1_1_0_0_n_n.rhsIdx_val_of_single rfl j q
/-- The right operand's free axis reads the result's second coordinate. -/
theorem feat_rhs_free (j : S10000x64.Idx) (q : dot_S10000x128_S64x128_S10000x64_1_1_0_0_n_n.contr.Idx) :
    (dot_S10000x128_S64x128_S10000x64_1_1_0_0_n_n.rhsIdx j q 0).val = (j 1).val := by
  unfold DotDims.rhsIdx
  rw [dif_neg (show ¬(0 : Fin S64x128.rank) ∈ dot_S10000x128_S64x128_S10000x64_1_1_0_0_n_n.rhsBatch by decide), dif_pos (show (0 : Fin S64x128.rank) ∈ dot_S10000x128_S64x128_S10000x64_1_1_0_0_n_n.rhsNonContracting by decide)]
  rfl

/-- The product into a zero accumulator at (a, b): both operands are contracted along their second axis, so the entry at (a, b) pairs row a of the left
    operand with row b of the right one, summed over the 128 positions of the contracted axis. -/
theorem feat_matmul_apply (x : FVec Ideal S10000x128 .f32) (w : FVec Ideal S64x128 .f32) (a : Fin 10000) (b : Fin 64) :
    matmul dot_S10000x128_S64x128_S10000x64_1_1_0_0_n_n none x w (constant (F := Ideal) S10000x64 .f32 0x00000000#32) (ix2 a b)
      = ∑ k : Fin 128, x (ix2 a k) * w (ix2 b k) := by
  simp only [matmul]
  rw [Ideal.matmul_constant_zero_apply, ← Equiv.sum_comp (contrEquiv1 dot_S10000x128_S64x128_S10000x64_1_1_0_0_n_n 128 rfl rfl).symm]
  refine Finset.sum_congr rfl fun k _ => ?_
  have hk := contrEquiv1_symm_val dot_S10000x128_S64x128_S10000x64_1_1_0_0_n_n 128 rfl rfl k
  have el : dot_S10000x128_S64x128_S10000x64_1_1_0_0_n_n.lhsIdx (ix2 a b) ((contrEquiv1 dot_S10000x128_S64x128_S10000x64_1_1_0_0_n_n 128 rfl rfl).symm k) = ix2 a k := funext fun c => Fin.ext (by
    match c with
    | ⟨0, _⟩ => exact feat_lhs_free _ _
    | ⟨1, _⟩ => exact (feat_lhs_contr _ _).trans hk)
  have er : dot_S10000x128_S64x128_S10000x64_1_1_0_0_n_n.rhsIdx (ix2 a b) ((contrEquiv1 dot_S10000x128_S64x128_S10000x64_1_1_0_0_n_n 128 rfl rfl).symm k) = ix2 b k := funext fun c => Fin.ext (by
    match c with
    | ⟨1, _⟩ => exact (feat_rhs_contr _ _).trans hk
    | ⟨0, _⟩ => exact feat_rhs_free _ _)
  rw [el, er]

/-! ### The product of a block of adjacency rows against the columns of the first layer's features -/

/-- The left operand's free axis reads the result's first coordinate. -/
theorem agg64_lhs_free (j : S400x64.Idx) (q : dot_S400x10000_S10000x64_S400x64_1_0_0_1_n_n.contr.Idx) :
    (dot_S400x10000_S10000x64_S400x64_1_0_0_1_n_n.lhsIdx j q 0).val = (j 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
/-- The left operand's contracted axis reads the contraction index. -/
theorem agg64_lhs_contr (j : S400x64.Idx) (q : dot_S400x10000_S10000x64_S400x64_1_0_0_1_n_n.contr.Idx) :
    (dot_S400x10000_S10000x64_S400x64_1_0_0_1_n_n.lhsIdx j q 1).val = (q ⟨0, by decide⟩).val :=
  dot_S400x10000_S10000x64_S400x64_1_0_0_1_n_n.lhsIdx_val_of_single rfl j q
/-- The right operand's contracted axis reads the contraction index. -/
theorem agg64_rhs_contr (j : S400x64.Idx) (q : dot_S400x10000_S10000x64_S400x64_1_0_0_1_n_n.contr.Idx) :
    (dot_S400x10000_S10000x64_S400x64_1_0_0_1_n_n.rhsIdx j q 0).val = (q ⟨0, by decide⟩).val :=
  dot_S400x10000_S10000x64_S400x64_1_0_0_1_n_n.rhsIdx_val_of_single rfl j q
/-- The right operand's free axis reads the result's second coordinate. -/
theorem agg64_rhs_free (j : S400x64.Idx) (q : dot_S400x10000_S10000x64_S400x64_1_0_0_1_n_n.contr.Idx) :
    (dot_S400x10000_S10000x64_S400x64_1_0_0_1_n_n.rhsIdx j q 1).val = (j 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- The product into a zero accumulator at (a, b): the left operand's second axis is contracted against the right operand's first, so the entry at (a, b) pairs
    row a of the left operand with column b of the right one, summed over the 10000 positions of the contracted axis. -/
theorem agg64_matmul_apply (x : FVec Ideal S400x10000 .f32) (w : FVec Ideal S10000x64 .f32) (a : Fin 400) (b : Fin 64) :
    matmul dot_S400x10000_S10000x64_S400x64_1_0_0_1_n_n none x w (constant (F := Ideal) S400x64 .f32 0x00000000#32) (ix2 a b)
      = ∑ k : Fin 10000, x (ix2 a k) * w (ix2 k b) := by
  simp only [matmul]
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 a b) ((contrEquiv1 dot_S400x10000_S10000x64_S400x64_1_0_0_1_n_n 10000 rfl rfl).symm k) = ix2 a k := funext fun c => Fin.ext (by
    match c with
    | ⟨0, _⟩ => exact agg64_lhs_free _ _
    | ⟨1, _⟩ => exact (agg64_lhs_contr _ _).trans hk)
  have er : dot_S400x10000_S10000x64_S400x64_1_0_0_1_n_n.rhsIdx (ix2 a b) ((contrEquiv1 dot_S400x10000_S10000x64_S400x64_1_0_0_1_n_n 10000 rfl rfl).symm k) = ix2 k b := funext fun c => Fin.ext (by
    match c with
    | ⟨0, _⟩ => exact (agg64_rhs_contr _ _).trans hk
    | ⟨1, _⟩ => exact agg64_rhs_free _ _)
  rw [el, er]

/-! ### The product of rows of the hidden block against rows of the second weight -/

/-- The left operand's free axis reads the result's first coordinate. -/
theorem proj_lhs_free (j : S400x16.Idx) (q : dot_S400x64_S16x64_S400x16_1_1_0_0_n_n.contr.Idx) :
    (dot_S400x64_S16x64_S400x16_1_1_0_0_n_n.lhsIdx j q 0).val = (j 0).val := by
  unfold DotDims.lhsIdx
  rw [dif_neg (show ¬(0 : Fin S400x64.rank) ∈ dot_S400x64_S16x64_S400x16_1_1_0_0_n_n.lhsBatch by decide), dif_pos (show (0 : Fin S400x64.rank) ∈ dot_S400x64_S16x64_S400x16_1_1_0_0_n_n.lhsNonContracting by decide)]
  rfl
/-- The left operand's contracted axis reads the contraction index. -/
theorem proj_lhs_contr (j : S400x16.Idx) (q : dot_S400x64_S16x64_S400x16_1_1_0_0_n_n.contr.Idx) :
    (dot_S400x64_S16x64_S400x16_1_1_0_0_n_n.lhsIdx j q 1).val = (q ⟨0, by decide⟩).val :=
  dot_S400x64_S16x64_S400x16_1_1_0_0_n_n.lhsIdx_val_of_single rfl j q
/-- The right operand's contracted axis reads the contraction index. -/
theorem proj_rhs_contr (j : S400x16.Idx) (q : dot_S400x64_S16x64_S400x16_1_1_0_0_n_n.contr.Idx) :
    (dot_S400x64_S16x64_S400x16_1_1_0_0_n_n.rhsIdx j q 1).val = (q ⟨0, by decide⟩).val :=
  dot_S400x64_S16x64_S400x16_1_1_0_0_n_n.rhsIdx_val_of_single rfl j q
/-- The right operand's free axis reads the result's second coordinate. -/
theorem proj_rhs_free (j : S400x16.Idx) (q : dot_S400x64_S16x64_S400x16_1_1_0_0_n_n.contr.Idx) :
    (dot_S400x64_S16x64_S400x16_1_1_0_0_n_n.rhsIdx j q 0).val = (j 1).val := by
  unfold DotDims.rhsIdx
  rw [dif_neg (show ¬(0 : Fin S16x64.rank) ∈ dot_S400x64_S16x64_S400x16_1_1_0_0_n_n.rhsBatch by decide), dif_pos (show (0 : Fin S16x64.rank) ∈ dot_S400x64_S16x64_S400x16_1_1_0_0_n_n.rhsNonContracting by decide)]
  rfl

/-- The product into a zero accumulator at (a, b): both operands are contracted along their second axis, so the entry at (a, b) pairs row a of the left
    operand with row b of the right one, summed over the 64 positions of the contracted axis. -/
theorem proj_matmul_apply (x : FVec Ideal S400x64 .f32) (w : FVec Ideal S16x64 .f32) (a : Fin 400) (b : Fin 16) :
    matmul dot_S400x64_S16x64_S400x16_1_1_0_0_n_n none x w (constant (F := Ideal) S400x16 .f32 0x00000000#32) (ix2 a b)
      = ∑ k : Fin 64, x (ix2 a k) * w (ix2 b k) := by
  simp only [matmul]
  rw [Ideal.matmul_constant_zero_apply, ← Equiv.sum_comp (contrEquiv1 dot_S400x64_S16x64_S400x16_1_1_0_0_n_n 64 rfl rfl).symm]
  refine Finset.sum_congr rfl fun k _ => ?_
  have hk := contrEquiv1_symm_val dot_S400x64_S16x64_S400x16_1_1_0_0_n_n 64 rfl rfl k
  have el : dot_S400x64_S16x64_S400x16_1_1_0_0_n_n.lhsIdx (ix2 a b) ((contrEquiv1 dot_S400x64_S16x64_S400x16_1_1_0_0_n_n 64 rfl rfl).symm k) = ix2 a k := funext fun c => Fin.ext (by
    match c with
    | ⟨0, _⟩ => exact proj_lhs_free _ _
    | ⟨1, _⟩ => exact (proj_lhs_contr _ _).trans hk)
  have er : dot_S400x64_S16x64_S400x16_1_1_0_0_n_n.rhsIdx (ix2 a b) ((contrEquiv1 dot_S400x64_S16x64_S400x16_1_1_0_0_n_n 64 rfl rfl).symm k) = ix2 b k := funext fun c => Fin.ext (by
    match c with
    | ⟨1, _⟩ => exact (proj_rhs_contr _ _).trans hk
    | ⟨0, _⟩ => exact proj_rhs_free _ _)
  rw [el, er]

/-! ### The product of a block of adjacency rows against the columns of the projected features -/

/-- The left operand's free axis reads the result's first coordinate. -/
theorem agg16_lhs_free (j : S400x16.Idx) (q : dot_S400x10000_S10000x16_S400x16_1_0_0_1_n_n.contr.Idx) :
    (dot_S400x10000_S10000x16_S400x16_1_0_0_1_n_n.lhsIdx j q 0).val = (j 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
/-- The left operand's contracted axis reads the contraction index. -/
theorem agg16_lhs_contr (j : S400x16.Idx) (q : dot_S400x10000_S10000x16_S400x16_1_0_0_1_n_n.contr.Idx) :
    (dot_S400x10000_S10000x16_S400x16_1_0_0_1_n_n.lhsIdx j q 1).val = (q ⟨0, by decide⟩).val :=
  dot_S400x10000_S10000x16_S400x16_1_0_0_1_n_n.lhsIdx_val_of_single rfl j q
/-- The right operand's contracted axis reads the contraction index. -/
theorem agg16_rhs_contr (j : S400x16.Idx) (q : dot_S400x10000_S10000x16_S400x16_1_0_0_1_n_n.contr.Idx) :
    (dot_S400x10000_S10000x16_S400x16_1_0_0_1_n_n.rhsIdx j q 0).val = (q ⟨0, by decide⟩).val :=
  dot_S400x10000_S10000x16_S400x16_1_0_0_1_n_n.rhsIdx_val_of_single rfl j q
/-- The right operand's free axis reads the result's second coordinate. -/
theorem agg16_rhs_free (j : S400x16.Idx) (q : dot_S400x10000_S10000x16_S400x16_1_0_0_1_n_n.contr.Idx) :
    (dot_S400x10000_S10000x16_S400x16_1_0_0_1_n_n.rhsIdx j q 1).val = (j 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The product into a zero accumulator at (a, b): the left operand's second axis is contracted against the right operand's first, so the entry at (a, b) pairs
    row a of the left operand with column b of the right one, summed over the 10000 positions of the contracted axis. -/
theorem agg16_matmul_apply (x : FVec Ideal S400x10000 .f32) (w : FVec Ideal S10000x16 .f32) (a : Fin 400) (b : Fin 16) :
    matmul dot_S400x10000_S10000x16_S400x16_1_0_0_1_n_n none x w (constant (F := Ideal) S400x16 .f32 0x00000000#32) (ix2 a b)
      = ∑ k : Fin 10000, x (ix2 a k) * w (ix2 k b) := by
  simp only [matmul]
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 a b) ((contrEquiv1 dot_S400x10000_S10000x16_S400x16_1_0_0_1_n_n 10000 rfl rfl).symm k) = ix2 a k := funext fun c => Fin.ext (by
    match c with
    | ⟨0, _⟩ => exact agg16_lhs_free _ _
    | ⟨1, _⟩ => exact (agg16_lhs_contr _ _).trans hk)
  have er : dot_S400x10000_S10000x16_S400x16_1_0_0_1_n_n.rhsIdx (ix2 a b) ((contrEquiv1 dot_S400x10000_S10000x16_S400x16_1_0_0_1_n_n 10000 rfl rfl).symm k) = ix2 k b := funext fun c => Fin.ext (by
    match c with
    | ⟨0, _⟩ => exact (agg16_rhs_contr _ _).trans hk
    | ⟨1, _⟩ => exact agg16_rhs_free _ _)
  rw [el, er]

/-! ### The product of rows of a block of codes against rows of all the codes -/

/-- The left operand's free axis reads the result's first coordinate. -/
theorem gram_lhs_free (j : S400x10000.Idx) (q : dot_S400x16_S10000x16_S400x10000_1_1_0_0_n_n.contr.Idx) :
    (dot_S400x16_S10000x16_S400x10000_1_1_0_0_n_n.lhsIdx j q 0).val = (j 0).val := by
  unfold DotDims.lhsIdx
  rw [dif_neg (show ¬(0 : Fin S400x16.rank) ∈ dot_S400x16_S10000x16_S400x10000_1_1_0_0_n_n.lhsBatch by decide), dif_pos (show (0 : Fin S400x16.rank) ∈ dot_S400x16_S10000x16_S400x10000_1_1_0_0_n_n.lhsNonContracting by decide)]
  rfl
/-- The left operand's contracted axis reads the contraction index. -/
theorem gram_lhs_contr (j : S400x10000.Idx) (q : dot_S400x16_S10000x16_S400x10000_1_1_0_0_n_n.contr.Idx) :
    (dot_S400x16_S10000x16_S400x10000_1_1_0_0_n_n.lhsIdx j q 1).val = (q ⟨0, by decide⟩).val :=
  dot_S400x16_S10000x16_S400x10000_1_1_0_0_n_n.lhsIdx_val_of_single rfl j q
/-- The right operand's contracted axis reads the contraction index. -/
theorem gram_rhs_contr (j : S400x10000.Idx) (q : dot_S400x16_S10000x16_S400x10000_1_1_0_0_n_n.contr.Idx) :
    (dot_S400x16_S10000x16_S400x10000_1_1_0_0_n_n.rhsIdx j q 1).val = (q ⟨0, by decide⟩).val :=
  dot_S400x16_S10000x16_S400x10000_1_1_0_0_n_n.rhsIdx_val_of_single rfl j q
/-- The right operand's free axis reads the result's second coordinate. -/
theorem gram_rhs_free (j : S400x10000.Idx) (q : dot_S400x16_S10000x16_S400x10000_1_1_0_0_n_n.contr.Idx) :
    (dot_S400x16_S10000x16_S400x10000_1_1_0_0_n_n.rhsIdx j q 0).val = (j 1).val := by
  unfold DotDims.rhsIdx
  rw [dif_neg (show ¬(0 : Fin S10000x16.rank) ∈ dot_S400x16_S10000x16_S400x10000_1_1_0_0_n_n.rhsBatch by decide), dif_pos (show (0 : Fin S10000x16.rank) ∈ dot_S400x16_S10000x16_S400x10000_1_1_0_0_n_n.rhsNonContracting by decide)]
  rfl

/-- The product into a zero accumulator at (a, b): both operands are contracted along their second axis, so the entry at (a, b) pairs row a of the left
    operand with row b of the right one, summed over the 16 positions of the contracted axis. -/
theorem gram_matmul_apply (x : FVec Ideal S400x16 .f32) (w : FVec Ideal S10000x16 .f32) (a : Fin 400) (b : Fin 10000) :
    matmul dot_S400x16_S10000x16_S400x10000_1_1_0_0_n_n none x w (constant (F := Ideal) S400x10000 .f32 0x00000000#32) (ix2 a b)
      = ∑ k : Fin 16, x (ix2 a k) * w (ix2 b k) := by
  simp only [matmul]
  rw [Ideal.matmul_constant_zero_apply, ← Equiv.sum_comp (contrEquiv1 dot_S400x16_S10000x16_S400x10000_1_1_0_0_n_n 16 rfl rfl).symm]
  refine Finset.sum_congr rfl fun k _ => ?_
  have hk := contrEquiv1_symm_val dot_S400x16_S10000x16_S400x10000_1_1_0_0_n_n 16 rfl rfl k
  have el : dot_S400x16_S10000x16_S400x10000_1_1_0_0_n_n.lhsIdx (ix2 a b) ((contrEquiv1 dot_S400x16_S10000x16_S400x10000_1_1_0_0_n_n 16 rfl rfl).symm k) = ix2 a k := funext fun c => Fin.ext (by
    match c with
    | ⟨0, _⟩ => exact gram_lhs_free _ _
    | ⟨1, _⟩ => exact (gram_lhs_contr _ _).trans hk)
  have er : dot_S400x16_S10000x16_S400x10000_1_1_0_0_n_n.rhsIdx (ix2 a b) ((contrEquiv1 dot_S400x16_S10000x16_S400x10000_1_1_0_0_n_n 16 rfl rfl).symm k) = ix2 b k := funext fun c => Fin.ext (by
    match c with
    | ⟨1, _⟩ => exact (gram_rhs_contr _ _).trans hk
    | ⟨0, _⟩ => exact gram_rhs_free _ _)
  rw [el, er]

/-! ### The four bodies -/

/-- The first body: X·W1ᵀ at (i, h), row i of the features against row h of the weight. -/
theorem pay0_apply (x : Vec Ideal S10000x128 .f32) (w1 : Vec Ideal S64x128 .f32) (i : Fin 10000) (h : Fin 64) :
    k0_pay1 (F := Ideal) x w1 (ix2 i h) = ∑ k : Fin 128, x (ix2 i k) * w1 (ix2 h k) := by
  unfold k0_pay1
  exact feat_matmul_apply x w1 i h

/-- The second body at (r, l): the block of adjacency rows times the features, its maximum with zero entry by entry
    (the broadcast scalar is the zero word, the number zero), and that against row l of the second weight. The shape
    cast is to the same shape, hence the identity. -/
theorem pay1_apply (a : Vec Ideal S400x10000 .f32) (u : Vec Ideal S10000x64 .f32) (w2 : Vec Ideal S16x64 .f32)
    (r : Fin 400) (l : Fin 16) :
    k1_pay1 (F := Ideal) a u w2 (ix2 r l)
      = ∑ h : Fin 64, max (∑ j : Fin 10000, a (ix2 r j) * u (ix2 j h)) 0 * w2 (ix2 l h) := by
  unfold k1_pay1
  rw [shapeCast_self]
  refine (proj_matmul_apply _ w2 r l).trans ?_
  refine Finset.sum_congr rfl fun h _ => ?_
  refine congrArg (· * w2 (ix2 l h)) ?_
  show max (matmul dot_S400x10000_S10000x64_S400x64_1_0_0_1_n_n none a u (constant (F := Ideal) S400x64 .f32 0x00000000#32) (ix2 r h))
      (Ideal.ofBits .f32 0x00000000#32) = _
  rw [agg64_matmul_apply, Ideal.ofBits_zero_f32]

/-- The third body: a block of adjacency rows times the projected features, at (r, l). -/
theorem pay2_apply (a : Vec Ideal S400x10000 .f32) (v : Vec Ideal S10000x16 .f32) (r : Fin 400) (l : Fin 16) :
    k2_pay1 (F := Ideal) a v (ix2 r l) = ∑ j : Fin 10000, a (ix2 r j) * v (ix2 j l) := by
  unfold k2_pay1
  rw [shapeCast_self]
  exact agg16_matmul_apply a v r l

/-- The fourth body at (r, j): the logistic function, entry by entry, of the block of codes times all the codes
    transposed, that is of the inner product of code r of the block with code j. -/
theorem pay3_apply (zr : Vec Ideal S400x16 .f32) (z : Vec Ideal S10000x16 .f32) (r : Fin 400) (j : Fin 10000) :
    k3_pay1 (F := Ideal) zr z (ix2 r j) = Ideal.logistic (∑ l : Fin 16, zr (ix2 r l) * z (ix2 j l)) := by
  unfold k3_pay1
  rw [shapeCast_self, shapeCast_self]
  exact congrArg Ideal.logistic (gram_matmul_apply zr z r j)

end Cert.KernelIdeal.Pay

end
-- ==== Proof.Spec.lean ====
/-
  The graph auto-encoder's forward pass as ONE function of its four argument arrays, over the extended reals,
  coordinate by coordinate. With X the node features [10000,128], A the normalised adjacency [10000,10000],
  W1 [64,128] and W2 [16,64] the two layers' weights (stored out-features first):

    feat   i h = Σ k, X(i,k) · W1(h,k)                 -- X W1ᵀ
    hidden i h = max (Σ j, A(i,j) · feat j h) 0         -- relu (A (X W1ᵀ))
    proj   i l = Σ h, hidden i h · W2(l,h)              -- hidden W2ᵀ
    latent i l = Σ j, A(i,j) · proj j l                 -- Z = A (hidden W2ᵀ)
    recon  i j = logistic (Σ l, latent i l · latent j l) -- sigmoid (Z Zᵀ)

  Every sum is a finite sum in the extended reals in the order its index type gives; both programs compute
  exactly these sums in exactly this grouping, so no law beyond re-indexing a sum is used anywhere and the
  arguments' finiteness is never needed.
-/
import Idealize.ShloMosaic.PureOps.Ideal
import Idealize.ShloMosaic.Lib.ValueIdx

noncomputable section

open scoped BigOperators

namespace Cert.Gae

open Idealize.ShloMosaic Idealize.ShloMosaic.ValueIdx

variable (X : (⟨2, ![10000, 128]⟩ : Shape).Idx → EReal) (A : (⟨2, ![10000, 10000]⟩ : Shape).Idx → EReal)
  (W1 : (⟨2, ![64, 128]⟩ : Shape).Idx → EReal) (W2 : (⟨2, ![16, 64]⟩ : Shape).Idx → EReal)

/-- The first layer's features before aggregation: row `i` of X against row `h` of W1. -/
def feat (i : Fin 10000) (h : Fin 64) : EReal := ∑ k : Fin 128, X (ix2 i k) * W1 (ix2 h k)

/-- The hidden layer: the features aggregated over the graph by A, then the rectifier. -/
def hidden (i : Fin 10000) (h : Fin 64) : EReal := max (∑ j : Fin 10000, A (ix2 i j) * feat X W1 j h) 0

/-- The second layer before aggregation: row `i` of the hidden layer against row `l` of W2. -/
def proj (i : Fin 10000) (l : Fin 16) : EReal := ∑ h : Fin 64, hidden X A W1 i h * W2 (ix2 l h)

/-- The latent code Z: the second layer aggregated over the graph by A. -/
def latent (i : Fin 10000) (l : Fin 16) : EReal := ∑ j : Fin 10000, A (ix2 i j) * proj X A W1 W2 j l

/-- The reconstructed adjacency at (i, j): the logistic function of the inner product of the two nodes' codes. -/
def recon (i j : Fin 10000) : EReal := Ideal.logistic (∑ l : Fin 16, latent X A W1 W2 i l * latent X A W1 W2 j l)

/-- The arrays the stages are, each read at an index by its two coordinates. -/
def featArr : (⟨2, ![10000, 64]⟩ : Shape).Idx → EReal := fun j => feat X W1 (j 0) (j 1)
def projArr : (⟨2, ![10000, 16]⟩ : Shape).Idx → EReal := fun j => proj X A W1 W2 (j 0) (j 1)
def latentArr : (⟨2, ![10000, 16]⟩ : Shape).Idx → EReal := fun j => latent X A W1 W2 (j 0) (j 1)
/-- The result array: the reconstruction at every pair of nodes. -/
def reconArr : (⟨2, ![10000, 10000]⟩ : Shape).Idx → EReal := fun j => recon X A W1 W2 (j 0) (j 1)

end Cert.Gae

end
-- ==== Proof.Stages.lean ====
/-
  The forward pass stage by stage, each stage's array as a function of the ARRAYS it reads (whatever they hold):
  the four functions the four Pallas calls compute. Composed in the program's order they are the specification's
  `reconArr`: the same sums in the same grouping, term for term.
-/
import proofs.«175761_g11158325035213_week1_w3_1130_5_alg».proof.Proof.Spec

noncomputable section

open scoped BigOperators

namespace Cert.Gae

open Idealize.ShloMosaic Idealize.ShloMosaic.ValueIdx

/-- Call 0: U = X W1ᵀ. -/
def stage0 (X : (⟨2, ![10000, 128]⟩ : Shape).Idx → EReal) (W1 : (⟨2, ![64, 128]⟩ : Shape).Idx → EReal) :
    (⟨2, ![10000, 64]⟩ : Shape).Idx → EReal :=
  fun i => ∑ k : Fin 128, X (ix2 (i 0) k) * W1 (ix2 (i 1) k)

/-- Call 1: V = relu(A U) W2ᵀ. -/
def stage1 (A : (⟨2, ![10000, 10000]⟩ : Shape).Idx → EReal) (U : (⟨2, ![10000, 64]⟩ : Shape).Idx → EReal)
    (W2 : (⟨2, ![16, 64]⟩ : Shape).Idx → EReal) : (⟨2, ![10000, 16]⟩ : Shape).Idx → EReal :=
  fun i => ∑ h : Fin 64, max (∑ j : Fin 10000, A (ix2 (i 0) j) * U (ix2 j h)) 0 * W2 (ix2 (i 1) h)

/-- Call 2: Z = A V. -/
def stage2 (A : (⟨2, ![10000, 10000]⟩ : Shape).Idx → EReal) (V : (⟨2, ![10000, 16]⟩ : Shape).Idx → EReal) :
    (⟨2, ![10000, 16]⟩ : Shape).Idx → EReal :=
  fun i => ∑ j : Fin 10000, A (ix2 (i 0) j) * V (ix2 j (i 1))

/-- Call 3: logistic(Z Zᵀ). -/
def stage3 (Z : (⟨2, ![10000, 16]⟩ : Shape).Idx → EReal) : (⟨2, ![10000, 10000]⟩ : Shape).Idx → EReal :=
  fun i => Ideal.logistic (∑ l : Fin 16, Z (ix2 (i 0) l) * Z (ix2 (i 1) l))

variable (X : (⟨2, ![10000, 128]⟩ : Shape).Idx → EReal) (A : (⟨2, ![10000, 10000]⟩ : Shape).Idx → EReal)
  (W1 : (⟨2, ![64, 128]⟩ : Shape).Idx → EReal) (W2 : (⟨2, ![16, 64]⟩ : Shape).Idx → EReal)

theorem stage0_eq : stage0 X W1 = featArr X W1 := rfl

theorem stage1_eq : stage1 A (stage0 X W1) W2 = projArr X A W1 W2 := rfl

theorem stage2_eq : stage2 A (stage1 A (stage0 X W1) W2) = latentArr X A W1 W2 := rfl

/-- The four stages composed are the specification. -/
theorem stages_eq : stage3 (stage2 A (stage1 A (stage0 X W1) W2)) = reconArr X A W1 W2 := rfl

end Cert.Gae

end
-- ==== Proof.KernelIdeal.Arrays.lean ====
import proofs.«175761_g11158325035213_week1_w3_1130_5_alg».proof.Proof.KernelIdeal.Call0
import proofs.«175761_g11158325035213_week1_w3_1130_5_alg».proof.Proof.KernelIdeal.Call1
import proofs.«175761_g11158325035213_week1_w3_1130_5_alg».proof.Proof.KernelIdeal.Call2
import proofs.«175761_g11158325035213_week1_w3_1130_5_alg».proof.Proof.KernelIdeal.Call3
import proofs.«175761_g11158325035213_week1_w3_1130_5_alg».proof.Proof.KernelIdeal.Payloads
import proofs.«175761_g11158325035213_week1_w3_1130_5_alg».proof.Proof.Stages
import Idealize.ShloMosaic.Lib.Pipeline.Value
import Idealize.ShloMosaic.Lib.ValueIdx

/-
  From blocks to arrays: what each of the four calls leaves in its output array, as one function of the arrays the
  call finds at entry.

  Calls 1, 2 and 3 run over 25 grid points. At point t the output window's block is rows 400·t … 400·t + 399 of
  the output array (all its columns), the first input window's block is the same rows of its array (all its
  columns), and every other input window's block is its whole array. So row r of the block written at point t is
  row 400·t + r of the array, and the body's arithmetic at (r, l), a sum over whole rows and columns of the input
  blocks, is the stage's function at (400·t + r, l) of the arrays themselves. The 25 blocks tile the 10000 rows
  (row i lies in the block of point i / 400), and every point writes its block back, so the array ends holding the
  stage's function everywhere. Call 0 has no grid: one point, every block the whole array.
-/

set_option maxRecDepth 16384

noncomputable section

open scoped BigOperators

namespace Cert.KernelIdeal.Pass

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-- Every load and store of the bodies starts at the origin of its buffer. -/
theorem arr_hz : (![0, 0] : Fin 2 → Nat) = fun _ => 0 := funext fun a => by fin_cases a <;> rfl

/-- Row r of the block of point t is row 400·t + r of the array. -/
def arr_row (t : Fin 25) (r : Fin 400) : Fin 10000 := ⟨t.val * 400 + r.val, by have := t.isLt; have := r.isLt; omega⟩

/-! ## Call 0: U = X·W1ᵀ, in one piece -/

/-- Call 0 has no grid: at its one point every window is at block (0, 0), the whole of its array. -/
theorem arr_idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of X is the whole of X. -/
theorem arr_emb0_0 (t : Fin cfg0.N) (i : Fin 10000) (k : Fin 128) :
    ((cfg0.win 0).blk t).view.emb (ix2 i k) = ix2 i k := by
  have e := arr_idx0 t
  funext d; apply Fin.ext
  match d with
  | ⟨0, _⟩ => show win0_0.index t (0 : Fin 2) * 10000 + 1 * i.val = i.val; omega
  | ⟨1, _⟩ => show win0_0.index t (1 : Fin 2) * 128 + 1 * k.val = k.val; omega

/-- The block of X, read at (i, k), is X at (i, k). -/
theorem arr_iblk0_0 (c : Dev nD) (t : Fin cfg0.N) (i : Fin 10000) (k : Fin 128) :
    (iblk0 V c 0 t (ix2 i k) : EReal) = (V c main_arg0 : S10000x128.Idx → EReal) (ix2 i k) :=
  congrArg (V c main_arg0 : S10000x128.Idx → EReal) (arr_emb0_0 t i k)

/-- The block of W1 is the whole of W1. -/
theorem arr_emb0_1 (t : Fin cfg0.N) (h : Fin 64) (k : Fin 128) :
    ((cfg0.win 1).blk t).view.emb (ix2 h k) = ix2 h k := by
  have e := arr_idx0 t
  funext d; apply Fin.ext
  match d with
  | ⟨0, _⟩ => show win0_1.index t (0 : Fin 2) * 64 + 1 * h.val = h.val; omega
  | ⟨1, _⟩ => show win0_1.index t (1 : Fin 2) * 128 + 1 * k.val = k.val; omega

/-- The block of W1, read at (h, k), is W1 at (h, k). -/
theorem arr_iblk0_1 (c : Dev nD) (t : Fin cfg0.N) (h : Fin 64) (k : Fin 128) :
    (iblk0 V c 1 t (ix2 h k) : EReal) = (V c main_arg2 : S64x128.Idx → EReal) (ix2 h k) :=
  congrArg (V c main_arg2 : S64x128.Idx → EReal) (arr_emb0_1 t h k)

/-- The output block is the whole output array. -/
theorem arr_emb0_2 (t : Fin cfg0.N) (i : Fin 10000) (h : Fin 64) :
    ((cfg0.win 2).blk t).view.emb (ix2 i h) = ix2 i h := by
  have e := arr_idx0 t
  funext d; apply Fin.ext
  match d with
  | ⟨0, _⟩ => show win0_2.index t (0 : Fin 2) * 10000 + 1 * i.val = i.val; omega
  | ⟨1, _⟩ => show win0_2.index t (1 : Fin 2) * 64 + 1 * h.val = h.val; omega

/-- What the one point writes back is the stage's function of the arrays at entry, whole. -/
theorem arr_flushed0 (c : Dev nD) (t : Fin cfg0.N) :
    (dat0 V c).flushed 2 t
      = ((cfg0.win 2).blk t).view.read (Elt Ideal) (Cert.Gae.stage0 (V c main_arg0) (V c main_arg2)) := by
  show (cfg0.win 2).cut (grid0.coords t) ((dat0 V c).after 2 t) = _
  rw [after0_2]
  unfold out0_2
  rw [View.canon_unit_zero arr_hz]
  simp only [View.ld_unit_zero (S := S10000x128) arr_hz, View.ld_unit_zero (S := S64x128) arr_hz]
  funext j
  obtain ⟨i, h, rfl⟩ : ∃ (i : Fin 10000) (h : Fin 64), j = ix2 i h := ⟨j 0, j 1, eq_ix2 j⟩
  show k0_pay1 (F := Ideal) (iblk0 V c 0 t) (iblk0 V c 1 t) (ix2 i h)
    = Cert.Gae.stage0 (V c main_arg0) (V c main_arg2) (((cfg0.win 2).blk t).view.emb (ix2 i h))
  rw [arr_emb0_2]
  refine (Pay.pay0_apply _ _ i h).trans ?_
  unfold Cert.Gae.stage0
  exact Finset.sum_congr rfl fun k _ => congrArg₂ (· * ·) (arr_iblk0_0 V c t i k) (arr_iblk0_1 V c t h k)

/-- An index of the output array is in the one block iff each coordinate is in the block's range on its axis. -/
theorem arr_mem_blk0 (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v0).slice (win0_2.rect t)).set ↔ _
  rw [View.set_slice_whole, Rect.mem_set_unit]
  exact Iff.rfl

/-- The one block is the whole array, and the one point writes it back. -/
theorem arr_cover0 (i : S10000x64.Idx) :
    ∃ t : Fin cfg0.N, (cfg0.win 2).flush t = true ∧ i ∈ ((cfg0.win 2).blk t).view.set := by
  have hi0 : (i 0).val < 10000 := (i 0).isLt
  have hi1 : (i 1).val < 64 := (i 1).isLt
  have t : Fin cfg0.N := ⟨0, by decide⟩
  have e := arr_idx0 t
  refine ⟨t, flush0_2 t, ?_⟩
  rw [arr_mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The output array of call 0 after the call: X·W1ᵀ of the arrays the call found. -/
theorem final0 (c : Dev nD) : (dat0 V c).arrAt 2 cfg0.N = Cert.Gae.stage0 (V c main_arg0) (V c main_arg2) :=
  (dat0 V c).arrAt_eq_of_cover 2 (Cert.Gae.stage0 (V c main_arg0) (V c main_arg2)) (fun t _ => arr_flushed0 V c t) arr_cover0

/-! ## Call 1: V = relu(A·U)·W2ᵀ, 400 rows at a time -/

/-- The index maps of call 1, decided over its 25 points: the adjacency window and the output window are at block
    row t, column block 0; the windows on U and on W2 stay at block (0, 0). -/
theorem arr_idx1 : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Where the adjacency block of point t sits: its entry (r, k) is the array's entry (400·t + r, k). -/
theorem arr_emb1_0 (t : Fin cfg1.N) (r : Fin 400) (k : Fin 10000) :
    ((cfg1.win 0).blk t).view.emb (ix2 r k) = ix2 (arr_row t r) k := by
  obtain ⟨ht, e⟩ := arr_idx1 t
  funext d; apply Fin.ext
  match d with
  | ⟨0, _⟩ => show win1_0.index t (0 : Fin 2) * 400 + 1 * r.val = t.val * 400 + r.val; omega
  | ⟨1, _⟩ => show win1_0.index t (1 : Fin 2) * 10000 + 1 * k.val = k.val; omega

/-- The adjacency block of point t, read at (r, k), is the array at (400·t + r, k). -/
theorem arr_iblk1_0 (c : Dev nD) (t : Fin cfg1.N) (r : Fin 400) (k : Fin 10000) :
    (iblk1 V c 0 t (ix2 r k) : EReal) = (V c main_arg1 : S10000x10000.Idx → EReal) (ix2 (arr_row t r) k) :=
  congrArg (V c main_arg1 : S10000x10000.Idx → EReal) (arr_emb1_0 t r k)

/-- The block of U is the whole of U. -/
theorem arr_emb1_1 (t : Fin cfg1.N) (k : Fin 10000) (h : Fin 64) :
    ((cfg1.win 1).blk t).view.emb (ix2 k h) = ix2 k h := by
  obtain ⟨ht, e⟩ := arr_idx1 t
  funext d; apply Fin.ext
  match d with
  | ⟨0, _⟩ => show win1_1.index t (0 : Fin 2) * 10000 + 1 * k.val = k.val; omega
  | ⟨1, _⟩ => show win1_1.index t (1 : Fin 2) * 64 + 1 * h.val = h.val; omega

/-- The block of U, read at (k, h), is U at (k, h). -/
theorem arr_iblk1_1 (c : Dev nD) (t : Fin cfg1.N) (k : Fin 10000) (h : Fin 64) :
    (iblk1 V c 1 t (ix2 k h) : EReal) = (V c main_v0 : S10000x64.Idx → EReal) (ix2 k h) :=
  congrArg (V c main_v0 : S10000x64.Idx → EReal) (arr_emb1_1 t k h)

/-- The block of W2 is the whole of W2. -/
theorem arr_emb1_2 (t : Fin cfg1.N) (l : Fin 16) (h : Fin 64) :
    ((cfg1.win 2).blk t).view.emb (ix2 l h) = ix2 l h := by
  obtain ⟨ht, e⟩ := arr_idx1 t
  funext d; apply Fin.ext
  match d with
  | ⟨0, _⟩ => show win1_2.index t (0 : Fin 2) * 16 + 1 * l.val = l.val; omega
  | ⟨1, _⟩ => show win1_2.index t (1 : Fin 2) * 64 + 1 * h.val = h.val; omega

/-- The block of W2, read at (l, h), is W2 at (l, h). -/
theorem arr_iblk1_2 (c : Dev nD) (t : Fin cfg1.N) (l : Fin 16) (h : Fin 64) :
    (iblk1 V c 2 t (ix2 l h) : EReal) = (V c main_arg3 : S16x64.Idx → EReal) (ix2 l h) :=
  congrArg (V c main_arg3 : S16x64.Idx → EReal) (arr_emb1_2 t l h)

/-- Where the output block of point t sits: its entry (r, l) is the array's entry (400·t + r, l). -/
theorem arr_emb1_3 (t : Fin cfg1.N) (r : Fin 400) (l : Fin 16) :
    ((cfg1.win 3).blk t).view.emb (ix2 r l) = ix2 (arr_row t r) l := by
  obtain ⟨ht, e⟩ := arr_idx1 t
  funext d; apply Fin.ext
  match d with
  | ⟨0, _⟩ => show win1_3.index t (0 : Fin 2) * 400 + 1 * r.val = t.val * 400 + r.val; omega
  | ⟨1, _⟩ => show win1_3.index t (1 : Fin 2) * 16 + 1 * l.val = l.val; omega

/-- What point t writes back is block t of the stage's function of the arrays at entry. -/
theorem arr_flushed1 (c : Dev nD) (t : Fin cfg1.N) :
    (dat1 V c).flushed 3 t
      = ((cfg1.win 3).blk t).view.read (Elt Ideal) (Cert.Gae.stage1 (V c main_arg1) (V c main_v0) (V c main_arg3)) := by
  show (cfg1.win 3).cut (grid1.coords t) ((dat1 V c).after 3 t) = _
  rw [after1_3]
  unfold out1_3
  rw [View.canon_unit_zero arr_hz]
  simp only [View.ld_unit_zero (S := S400x10000) arr_hz, View.ld_unit_zero (S := S10000x64) arr_hz, View.ld_unit_zero (S := S16x64) arr_hz]
  funext j
  obtain ⟨r, l, rfl⟩ : ∃ (r : Fin 400) (l : Fin 16), j = ix2 r l := ⟨j 0, j 1, eq_ix2 j⟩
  show k1_pay1 (F := Ideal) (iblk1 V c 0 t) (iblk1 V c 1 t) (iblk1 V c 2 t) (ix2 r l)
    = Cert.Gae.stage1 (V c main_arg1) (V c main_v0) (V c main_arg3) (((cfg1.win 3).blk t).view.emb (ix2 r l))
  rw [arr_emb1_3]
  refine (Pay.pay1_apply _ _ _ r l).trans ?_
  unfold Cert.Gae.stage1
  exact Finset.sum_congr rfl fun h _ => congrArg₂ (· * ·)
    (congrArg (max · (0 : EReal)) (Finset.sum_congr rfl fun k _ =>
      congrArg₂ (· * ·) (arr_iblk1_0 V c t r k) (arr_iblk1_1 V c t k h)))
    (arr_iblk1_2 V c t l h)

/-- An index of the output array is in point t's block iff each coordinate is in the block's range on its axis. -/
theorem arr_mem_blk1 (t : Fin cfg1.N) (i : S10000x16.Idx) :
    i ∈ ((cfg1.win 3).blk t).view.set ↔ ∀ a : Fin 2, win1_3.index t a * S400x16.size a ≤ (i a).val ∧ (i a).val < win1_3.index t a * S400x16.size a + S400x16.size a := by
  show i ∈ ((View.whole main_v1).slice (win1_3.rect t)).set ↔ _
  rw [View.set_slice_whole, Rect.mem_set_unit]
  exact Iff.rfl

/-- Every index of the output array is in the block of the point its row divided by 400 names (25 · 400 = 10000),
    and every point writes its block back. -/
theorem arr_cover1 (i : S10000x16.Idx) :
    ∃ t : Fin cfg1.N, (cfg1.win 3).flush t = true ∧ i ∈ ((cfg1.win 3).blk t).view.set := by
  have hi0 : (i 0).val < 10000 := (i 0).isLt
  have hi1 : (i 1).val < 16 := (i 1).isLt
  obtain ⟨t, htv⟩ : ∃ t : Fin cfg1.N, t.val = (i 0).val / 400 := ⟨⟨(i 0).val / 400, by show (i 0).val / 400 < 25; omega⟩, rfl⟩
  obtain ⟨ht, e⟩ := arr_idx1 t
  refine ⟨t, flush1_3 t, ?_⟩
  rw [arr_mem_blk1]
  intro a
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 16 ≤ (i 1).val ∧ (i 1).val < win1_3.index t (1 : Fin 2) * 16 + 16
    omega

/-- The output array of call 1 after the call: relu(A·U)·W2ᵀ of the arrays the call found. -/
theorem final1 (c : Dev nD) : (dat1 V c).arrAt 3 cfg1.N = Cert.Gae.stage1 (V c main_arg1) (V c main_v0) (V c main_arg3) :=
  (dat1 V c).arrAt_eq_of_cover 3 (Cert.Gae.stage1 (V c main_arg1) (V c main_v0) (V c main_arg3)) (fun t _ => arr_flushed1 V c t) arr_cover1

/-! ## Call 2: Z = A·V, 400 rows at a time -/

/-- The index maps of call 2, decided over its 25 points: the adjacency window and the output window are at block
    row t, column block 0; the window on V stays at block (0, 0). -/
theorem arr_idx2 : ∀ t : Fin cfg2.N, t.val < 25
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Where the adjacency block of point t sits: its entry (r, k) is the array's entry (400·t + r, k). -/
theorem arr_emb2_0 (t : Fin cfg2.N) (r : Fin 400) (k : Fin 10000) :
    ((cfg2.win 0).blk t).view.emb (ix2 r k) = ix2 (arr_row t r) k := by
  obtain ⟨ht, e⟩ := arr_idx2 t
  funext d; apply Fin.ext
  match d with
  | ⟨0, _⟩ => show win2_0.index t (0 : Fin 2) * 400 + 1 * r.val = t.val * 400 + r.val; omega
  | ⟨1, _⟩ => show win2_0.index t (1 : Fin 2) * 10000 + 1 * k.val = k.val; omega

/-- The adjacency block of point t, read at (r, k), is the array at (400·t + r, k). -/
theorem arr_iblk2_0 (c : Dev nD) (t : Fin cfg2.N) (r : Fin 400) (k : Fin 10000) :
    (iblk2 V c 0 t (ix2 r k) : EReal) = (V c main_arg1 : S10000x10000.Idx → EReal) (ix2 (arr_row t r) k) :=
  congrArg (V c main_arg1 : S10000x10000.Idx → EReal) (arr_emb2_0 t r k)

/-- The block of V is the whole of V. -/
theorem arr_emb2_1 (t : Fin cfg2.N) (k : Fin 10000) (l : Fin 16) :
    ((cfg2.win 1).blk t).view.emb (ix2 k l) = ix2 k l := by
  obtain ⟨ht, e⟩ := arr_idx2 t
  funext d; apply Fin.ext
  match d with
  | ⟨0, _⟩ => show win2_1.index t (0 : Fin 2) * 10000 + 1 * k.val = k.val; omega
  | ⟨1, _⟩ => show win2_1.index t (1 : Fin 2) * 16 + 1 * l.val = l.val; omega

/-- The block of V, read at (k, l), is V at (k, l). -/
theorem arr_iblk2_1 (c : Dev nD) (t : Fin cfg2.N) (k : Fin 10000) (l : Fin 16) :
    (iblk2 V c 1 t (ix2 k l) : EReal) = (V c main_v1 : S10000x16.Idx → EReal) (ix2 k l) :=
  congrArg (V c main_v1 : S10000x16.Idx → EReal) (arr_emb2_1 t k l)

/-- Where the output block of point t sits: its entry (r, l) is the array's entry (400·t + r, l). -/
theorem arr_emb2_2 (t : Fin cfg2.N) (r : Fin 400) (l : Fin 16) :
    ((cfg2.win 2).blk t).view.emb (ix2 r l) = ix2 (arr_row t r) l := by
  obtain ⟨ht, e⟩ := arr_idx2 t
  funext d; apply Fin.ext
  match d with
  | ⟨0, _⟩ => show win2_2.index t (0 : Fin 2) * 400 + 1 * r.val = t.val * 400 + r.val; omega
  | ⟨1, _⟩ => show win2_2.index t (1 : Fin 2) * 16 + 1 * l.val = l.val; omega

/-- What point t writes back is block t of the stage's function of the arrays at entry. -/
theorem arr_flushed2 (c : Dev nD) (t : Fin cfg2.N) :
    (dat2 V c).flushed 2 t
      = ((cfg2.win 2).blk t).view.read (Elt Ideal) (Cert.Gae.stage2 (V c main_arg1) (V c main_v1)) := by
  show (cfg2.win 2).cut (grid2.coords t) ((dat2 V c).after 2 t) = _
  rw [after2_2]
  unfold out2_2
  rw [View.canon_unit_zero arr_hz]
  simp only [View.ld_unit_zero (S := S400x10000) arr_hz, View.ld_unit_zero (S := S10000x16) arr_hz]
  funext j
  obtain ⟨r, l, rfl⟩ : ∃ (r : Fin 400) (l : Fin 16), j = ix2 r l := ⟨j 0, j 1, eq_ix2 j⟩
  show k2_pay1 (F := Ideal) (iblk2 V c 0 t) (iblk2 V c 1 t) (ix2 r l)
    = Cert.Gae.stage2 (V c main_arg1) (V c main_v1) (((cfg2.win 2).blk t).view.emb (ix2 r l))
  rw [arr_emb2_2]
  refine (Pay.pay2_apply _ _ r l).trans ?_
  unfold Cert.Gae.stage2
  exact Finset.sum_congr rfl fun k _ => congrArg₂ (· * ·) (arr_iblk2_0 V c t r k) (arr_iblk2_1 V c t k l)

/-- An index of the output array is in point t's block iff each coordinate is in the block's range on its axis. -/
theorem arr_mem_blk2 (t : Fin cfg2.N) (i : S10000x16.Idx) :
    i ∈ ((cfg2.win 2).blk t).view.set ↔ ∀ a : Fin 2, win2_2.index t a * S400x16.size a ≤ (i a).val ∧ (i a).val < win2_2.index t a * S400x16.size a + S400x16.size a := by
  show i ∈ ((View.whole main_v2).slice (win2_2.rect t)).set ↔ _
  rw [View.set_slice_whole, Rect.mem_set_unit]
  exact Iff.rfl

/-- Every index of the output array is in the block of the point its row divided by 400 names (25 · 400 = 10000),
    and every point writes its block back. -/
theorem arr_cover2 (i : S10000x16.Idx) :
    ∃ t : Fin cfg2.N, (cfg2.win 2).flush t = true ∧ i ∈ ((cfg2.win 2).blk t).view.set := by
  have hi0 : (i 0).val < 10000 := (i 0).isLt
  have hi1 : (i 1).val < 16 := (i 1).isLt
  obtain ⟨t, htv⟩ : ∃ t : Fin cfg2.N, t.val = (i 0).val / 400 := ⟨⟨(i 0).val / 400, by show (i 0).val / 400 < 25; omega⟩, rfl⟩
  obtain ⟨ht, e⟩ := arr_idx2 t
  refine ⟨t, flush2_2 t, ?_⟩
  rw [arr_mem_blk2]
  intro a
  match a with
  | ⟨0, _⟩ =>
    show win2_2.index t (0 : Fin 2) * 400 ≤ (i 0).val ∧ (i 0).val < win2_2.index t (0 : Fin 2) * 400 + 400
    omega
  | ⟨1, _⟩ =>
    show win2_2.index t (1 : Fin 2) * 16 ≤ (i 1).val ∧ (i 1).val < win2_2.index t (1 : Fin 2) * 16 + 16
    omega

/-- The output array of call 2 after the call: A·V of the arrays the call found. -/
theorem final2 (c : Dev nD) : (dat2 V c).arrAt 2 cfg2.N = Cert.Gae.stage2 (V c main_arg1) (V c main_v1) :=
  (dat2 V c).arrAt_eq_of_cover 2 (Cert.Gae.stage2 (V c main_arg1) (V c main_v1)) (fun t _ => arr_flushed2 V c t) arr_cover2

/-! ## Call 3: logistic(Z·Zᵀ), 400 rows at a time -/

/-- The index maps of call 3, decided over its 25 points: the window on the block of codes and the output window are
    at block row t, column block 0; the window on all the codes stays at block (0, 0). -/
theorem arr_idx3 : ∀ t : Fin cfg3.N, t.val < 25
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Where the block of codes of point t sits: its entry (r, l) is the array's entry (400·t + r, l). -/
theorem arr_emb3_0 (t : Fin cfg3.N) (r : Fin 400) (l : Fin 16) :
    ((cfg3.win 0).blk t).view.emb (ix2 r l) = ix2 (arr_row t r) l := by
  obtain ⟨ht, e⟩ := arr_idx3 t
  funext d; apply Fin.ext
  match d with
  | ⟨0, _⟩ => show win3_0.index t (0 : Fin 2) * 400 + 1 * r.val = t.val * 400 + r.val; omega
  | ⟨1, _⟩ => show win3_0.index t (1 : Fin 2) * 16 + 1 * l.val = l.val; omega

/-- The block of codes of point t, read at (r, l), is Z at (400·t + r, l). -/
theorem arr_iblk3_0 (c : Dev nD) (t : Fin cfg3.N) (r : Fin 400) (l : Fin 16) :
    (iblk3 V c 0 t (ix2 r l) : EReal) = (V c main_v2 : S10000x16.Idx → EReal) (ix2 (arr_row t r) l) :=
  congrArg (V c main_v2 : S10000x16.Idx → EReal) (arr_emb3_0 t r l)

/-- The second window's block is the whole of Z. -/
theorem arr_emb3_1 (t : Fin cfg3.N) (k : Fin 10000) (l : Fin 16) :
    ((cfg3.win 1).blk t).view.emb (ix2 k l) = ix2 k l := by
  obtain ⟨ht, e⟩ := arr_idx3 t
  funext d; apply Fin.ext
  match d with
  | ⟨0, _⟩ => show win3_1.index t (0 : Fin 2) * 10000 + 1 * k.val = k.val; omega
  | ⟨1, _⟩ => show win3_1.index t (1 : Fin 2) * 16 + 1 * l.val = l.val; omega

/-- The second window's block, read at (k, l), is Z at (k, l). -/
theorem arr_iblk3_1 (c : Dev nD) (t : Fin cfg3.N) (k : Fin 10000) (l : Fin 16) :
    (iblk3 V c 1 t (ix2 k l) : EReal) = (V c main_v2 : S10000x16.Idx → EReal) (ix2 k l) :=
  congrArg (V c main_v2 : S10000x16.Idx → EReal) (arr_emb3_1 t k l)

/-- Where the output block of point t sits: its entry (r, k) is the array's entry (400·t + r, k). -/
theorem arr_emb3_2 (t : Fin cfg3.N) (r : Fin 400) (k : Fin 10000) :
    ((cfg3.win 2).blk t).view.emb (ix2 r k) = ix2 (arr_row t r) k := by
  obtain ⟨ht, e⟩ := arr_idx3 t
  funext d; apply Fin.ext
  match d with
  | ⟨0, _⟩ => show win3_2.index t (0 : Fin 2) * 400 + 1 * r.val = t.val * 400 + r.val; omega
  | ⟨1, _⟩ => show win3_2.index t (1 : Fin 2) * 10000 + 1 * k.val = k.val; omega

/-- What point t writes back is block t of the stage's function of the arrays at entry. -/
theorem arr_flushed3 (c : Dev nD) (t : Fin cfg3.N) :
    (dat3 V c).flushed 2 t
      = ((cfg3.win 2).blk t).view.read (Elt Ideal) (Cert.Gae.stage3 (V c main_v2)) := by
  show (cfg3.win 2).cut (grid3.coords t) ((dat3 V c).after 2 t) = _
  rw [after3_2]
  unfold out3_2
  rw [View.canon_unit_zero arr_hz]
  simp only [View.ld_unit_zero (S := S400x16) arr_hz, View.ld_unit_zero (S := S10000x16) arr_hz]
  funext j
  obtain ⟨r, l, rfl⟩ : ∃ (r : Fin 400) (l : Fin 10000), j = ix2 r l := ⟨j 0, j 1, eq_ix2 j⟩
  show k3_pay1 (F := Ideal) (iblk3 V c 0 t) (iblk3 V c 1 t) (ix2 r l)
    = Cert.Gae.stage3 (V c main_v2) (((cfg3.win 2).blk t).view.emb (ix2 r l))
  rw [arr_emb3_2]
  refine (Pay.pay3_apply _ _ r l).trans ?_
  unfold Cert.Gae.stage3
  exact congrArg Ideal.logistic (Finset.sum_congr rfl fun k _ =>
    congrArg₂ (· * ·) (arr_iblk3_0 V c t r k) (arr_iblk3_1 V c t l k))

/-- An index of the output array is in point t's block iff each coordinate is in the block's range on its axis. -/
theorem arr_mem_blk3 (t : Fin cfg3.N) (i : S10000x10000.Idx) :
    i ∈ ((cfg3.win 2).blk t).view.set ↔ ∀ a : Fin 2, win3_2.index t a * S400x10000.size a ≤ (i a).val ∧ (i a).val < win3_2.index t a * S400x10000.size a + S400x10000.size a := by
  show i ∈ ((View.whole main_v3).slice (win3_2.rect t)).set ↔ _
  rw [View.set_slice_whole, Rect.mem_set_unit]
  exact Iff.rfl

/-- Every index of the output array is in the block of the point its row divided by 400 names (25 · 400 = 10000),
    and every point writes its block back. -/
theorem arr_cover3 (i : S10000x10000.Idx) :
    ∃ t : Fin cfg3.N, (cfg3.win 2).flush t = true ∧ i ∈ ((cfg3.win 2).blk t).view.set := by
  have hi0 : (i 0).val < 10000 := (i 0).isLt
  have hi1 : (i 1).val < 10000 := (i 1).isLt
  obtain ⟨t, htv⟩ : ∃ t : Fin cfg3.N, t.val = (i 0).val / 400 := ⟨⟨(i 0).val / 400, by show (i 0).val / 400 < 25; omega⟩, rfl⟩
  obtain ⟨ht, e⟩ := arr_idx3 t
  refine ⟨t, flush3_2 t, ?_⟩
  rw [arr_mem_blk3]
  intro a
  match a with
  | ⟨0, _⟩ =>
    show win3_2.index t (0 : Fin 2) * 400 ≤ (i 0).val ∧ (i 0).val < win3_2.index t (0 : Fin 2) * 400 + 400
    omega
  | ⟨1, _⟩ =>
    show win3_2.index t (1 : Fin 2) * 10000 ≤ (i 1).val ∧ (i 1).val < win3_2.index t (1 : Fin 2) * 10000 + 10000
    omega

/-- The output array of call 3 after the call: logistic(Z·Zᵀ) of the array of codes the call found. -/
theorem final3 (c : Dev nD) : (dat3 V c).arrAt 2 cfg3.N = Cert.Gae.stage3 (V c main_v2) :=
  (dat3 V c).arrAt_eq_of_cover 2 (Cert.Gae.stage3 (V c main_v2)) (fun t _ => arr_flushed3 V c t) arr_cover3

end Cert.KernelIdeal.Pass

end
-- ==== Proof.KernelIdeal.Values.lean ====
/-
  What the forward pass leaves in the result array, over the extended reals. Reading the boundary contents back
  call by call: call 0 finds X and W1 as launched and leaves the features U = X W1ᵀ; call 1 finds A, U and W2 and
  leaves V = relu(A U) W2ᵀ; call 2 finds A and V and leaves the latent code Z = A V; call 3 finds Z (on both its
  reading windows) and leaves logistic(Z Zᵀ). Each call's output is the corresponding stage function of the arrays
  it found, the arrays it found are the previous calls' outputs or untouched arguments, and the four stages composed
  are the specification: the result array ends at `reconArr` of the four argument arrays as launched.
-/
import proofs.«175761_g11158325035213_week1_w3_1130_5_alg».proof.Proof.KernelIdeal.Ends
import proofs.«175761_g11158325035213_week1_w3_1130_5_alg».proof.Proof.KernelIdeal.Arrays
import proofs.«175761_g11158325035213_week1_w3_1130_5_alg».proof.Proof.Stages

set_option maxRecDepth 16384

noncomputable section

namespace Cert.KernelIdeal.Pass

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The host constants are written to buffers of their own: an argument is as launched when call 0 is entered. -/
theorem W1_arg (c : Dev nD) (b : Ref sig .tc) (h0 : b ≠ main_c) (h1 : b ≠ main_c_0) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.nullary_writes, Finset.mem_singleton]
    exact ⟨StableHlo.devRef_ne_of_ne h0, StableHlo.devRef_ne_of_ne h1⟩))

theorem V1_arg0 (c : Dev nD) : V1 m ρ c main_arg0 = m ((c : Thread nD τ).loc main_arg0) := W1_arg m ρ c main_arg0 (by decide) (by decide)
theorem V1_arg1 (c : Dev nD) : V1 m ρ c main_arg1 = m ((c : Thread nD τ).loc main_arg1) := W1_arg m ρ c main_arg1 (by decide) (by decide)
theorem V1_arg2 (c : Dev nD) : V1 m ρ c main_arg2 = m ((c : Thread nD τ).loc main_arg2) := W1_arg m ρ c main_arg2 (by decide) (by decide)
theorem V1_arg3 (c : Dev nD) : V1 m ρ c main_arg3 = m ((c : Thread nD τ).loc main_arg3) := W1_arg m ρ c main_arg3 (by decide) (by decide)

/-- After call 0: the features. -/
theorem V2_feat (c : Dev nD) :
    V2 m ρ c main_v0 = Cert.Gae.stage0 (m ((c : Thread nD τ).loc main_arg0)) (m ((c : Thread nD τ).loc main_arg2)) :=
  (W2_arr m ρ c 2).trans ((final0 (V1 m ρ) c).trans (by rw [V1_arg0, V1_arg2]))
theorem V2_arg1 (c : Dev nD) : V2 m ρ c main_arg1 = m ((c : Thread nD τ).loc main_arg1) :=
  (W2_of_ne m ρ c main_arg1 (by decide)).trans (V1_arg1 m ρ c)
theorem V2_arg3 (c : Dev nD) : V2 m ρ c main_arg3 = m ((c : Thread nD τ).loc main_arg3) :=
  (W2_of_ne m ρ c main_arg3 (by decide)).trans (V1_arg3 m ρ c)

/-- After call 1: the second layer before aggregation. -/
theorem V3_proj (c : Dev nD) :
    V3 m ρ c main_v1 = Cert.Gae.stage1 (m ((c : Thread nD τ).loc main_arg1))
      (Cert.Gae.stage0 (m ((c : Thread nD τ).loc main_arg0)) (m ((c : Thread nD τ).loc main_arg2))) (m ((c : Thread nD τ).loc main_arg3)) :=
  (W3_arr m ρ c 3).trans ((final1 (V2 m ρ) c).trans (by rw [V2_arg1, V2_feat, V2_arg3]))
theorem V3_arg1 (c : Dev nD) : V3 m ρ c main_arg1 = m ((c : Thread nD τ).loc main_arg1) :=
  (W3_in m ρ c 0 rfl).trans (V2_arg1 m ρ c)

/-- After call 2: the latent code. -/
theorem V4_latent (c : Dev nD) :
    V4 m ρ c main_v2 = Cert.Gae.stage2 (m ((c : Thread nD τ).loc main_arg1)) (Cert.Gae.stage1 (m ((c : Thread nD τ).loc main_arg1))
      (Cert.Gae.stage0 (m ((c : Thread nD τ).loc main_arg0)) (m ((c : Thread nD τ).loc main_arg2))) (m ((c : Thread nD τ).loc main_arg3))) :=
  (W4_arr m ρ c 2).trans ((final2 (V3 m ρ) c).trans (by rw [V3_arg1, V3_proj]))

/-- After call 3: the reconstruction, which is the specification of the four arguments as launched. -/
theorem W5_result (c : Dev nD) :
    W5 m ρ c (Proc.devRef .tc main_v3) = Cert.Gae.reconArr (m ((c : Thread nD τ).loc main_arg0)) (m ((c : Thread nD τ).loc main_arg1))
      (m ((c : Thread nD τ).loc main_arg2)) (m ((c : Thread nD τ).loc main_arg3)) :=
  (W5_out m ρ c).trans ((final3 (V4 m ρ) c).trans (by rw [V4_latent]; exact Cert.Gae.stages_eq _ _ _ _))

end Cert.KernelIdeal.Pass

end
-- ==== Proof.RefIsSpec.lean ====
import proofs.«175761_g11158325035213_week1_w3_1130_5_alg».proof.Proof.Gen.ReferenceIdeal.Read
import proofs.«175761_g11158325035213_week1_w3_1130_5_alg».proof.Proof.Spec
import Idealize.ShloMosaic.Lib.ValueIdx
import Idealize.ShloMosaic.PureOps.Ideal.Laws

/-
  The reference program is the specification.

  The reference computes, one operation at a time, W1ᵀ, X·W1ᵀ, A·(X·W1ᵀ), its maximum with zero, W2ᵀ, the product
  with W2ᵀ, A times that, the transpose of the result, the product of the result with its transpose, and then
  1 / (1 + exp (−·)) entry by entry. Each matrix product is, at an index, the finite sum over the contracted axis of
  the products of the two entries; a transpose reads its operand with the two coordinates exchanged. So at the
  coordinates (i, h) each stage is literally the sum the specification writes, over the same index type in the same
  order, with the same grouping: nothing but the identification of the index functions is used, and no law of the
  extended reals beyond the definitions of the operations.
-/

noncomputable section

open scoped BigOperators

namespace Cert.Gae.Ref

open Cert.ReferenceIdeal Cert.ReferenceIdeal.Read Idealize.ShloMosaic Idealize.ShloMosaic.ValueIdx

variable (X : (⟨S10000x128, .f32⟩ : BufTy).Contents (Elt Ideal)) (A : (⟨S10000x10000, .f32⟩ : BufTy).Contents (Elt Ideal))
  (W1 : (⟨S64x128, .f32⟩ : BufTy).Contents (Elt Ideal)) (W2 : (⟨S16x64, .f32⟩ : BufTy).Contents (Elt Ideal))

/-- The single-precision word 0x3F800000 (sign 0, exponent 127, fraction 0) is the number one. -/
theorem one_word : Ideal.ofBits .f32 0x3F800000#32 = 1 := by
  simp [Ideal.ofBits, Ideal.ieee, -EReal.coe_mul]; norm_num

/-- X·W1ᵀ at (i, h). The transpose reads W1 at (h, k), so the entry is Σ k, X(i,k)·W1(h,k): the same sum, term by
    term. -/
theorem feat_stage (i : Fin 10000) (h : Fin 64) :
    val_main_v1 (F := Ideal) X W1 (ix2 i h) = Cert.Gae.feat X W1 i h := by
  rw [val_main_v1_apply]
  unfold Cert.Gae.feat
  refine Finset.sum_congr rfl fun k _ => ?_
  rw [val_main_v0_apply]
  have el : lidx_main_v1 (ix2 i h) k = ix2 i k :=
    funext fun a => Fin.ext (by match a with | ⟨0, _⟩ => rfl | ⟨1, _⟩ => rfl)
  have er : idx_main_v0 (ridx_main_v1 (ix2 i h) k) = ix2 h k :=
    funext fun a => Fin.ext (by match a with | ⟨0, _⟩ => rfl | ⟨1, _⟩ => rfl)
  rw [el, er]

/-- max (A·(X·W1ᵀ)) 0 at (i, h). The product's entry is Σ j, A(i,j)·(X·W1ᵀ)(j,h), the previous stage under the
    same sum; the broadcast constant is the zero word, which is the number zero. -/
theorem hidden_stage (i : Fin 10000) (h : Fin 64) :
    val_main_v3 (F := Ideal) X A W1 (ix2 i h) = Cert.Gae.hidden X A W1 i h := by
  rw [val_main_v3_apply, val_main_v2_apply, val_main_call0_v0_apply, val_main_call0_cst_apply]
  unfold Cert.Gae.hidden
  rw [Ideal.maximumf_def, Ideal.ofBits_def, Ideal.ofBits_zero_f32]
  congr 1
  refine Finset.sum_congr rfl fun k _ => ?_
  have el : lidx_main_v2 (ix2 i h) k = ix2 i k :=
    funext fun a => Fin.ext (by match a with | ⟨0, _⟩ => rfl | ⟨1, _⟩ => rfl)
  have er : ridx_main_v2 (ix2 i h) k = ix2 k h :=
    funext fun a => Fin.ext (by match a with | ⟨0, _⟩ => rfl | ⟨1, _⟩ => rfl)
  rw [el, er, feat_stage]

/-- hidden·W2ᵀ at (i, l). The transpose reads W2 at (l, h), so the entry is Σ h, hidden(i,h)·W2(l,h). -/
theorem proj_stage (i : Fin 10000) (l : Fin 16) :
    val_main_v5 (F := Ideal) X A W1 W2 (ix2 i l) = Cert.Gae.proj X A W1 W2 i l := by
  rw [val_main_v5_apply]
  unfold Cert.Gae.proj
  refine Finset.sum_congr rfl fun k _ => ?_
  rw [val_main_v4_apply]
  have el : lidx_main_v5 (ix2 i l) k = ix2 i k :=
    funext fun a => Fin.ext (by match a with | ⟨0, _⟩ => rfl | ⟨1, _⟩ => rfl)
  have er : idx_main_v4 (ridx_main_v5 (ix2 i l) k) = ix2 l k :=
    funext fun a => Fin.ext (by match a with | ⟨0, _⟩ => rfl | ⟨1, _⟩ => rfl)
  rw [el, er, hidden_stage]

/-- A·(hidden·W2ᵀ) at (i, l): Σ j, A(i,j)·proj(j,l), the previous stage under the same sum. -/
theorem latent_stage (i : Fin 10000) (l : Fin 16) :
    val_main_v6 (F := Ideal) X A W1 W2 (ix2 i l) = Cert.Gae.latent X A W1 W2 i l := by
  rw [val_main_v6_apply]
  unfold Cert.Gae.latent
  refine Finset.sum_congr rfl fun k _ => ?_
  have el : lidx_main_v6 (ix2 i l) k = ix2 i k :=
    funext fun a => Fin.ext (by match a with | ⟨0, _⟩ => rfl | ⟨1, _⟩ => rfl)
  have er : ridx_main_v6 (ix2 i l) k = ix2 k l :=
    funext fun a => Fin.ext (by match a with | ⟨0, _⟩ => rfl | ⟨1, _⟩ => rfl)
  rw [el, er, proj_stage]

/-- Z·Zᵀ at (i, j). The transpose reads Z at (j, l), so the entry is the inner product Σ l, Z(i,l)·Z(j,l) of the
    two nodes' codes. -/
theorem gram_stage (i j : Fin 10000) :
    val_main_v8 (F := Ideal) X A W1 W2 (ix2 i j)
      = ∑ l : Fin 16, Cert.Gae.latent X A W1 W2 i l * Cert.Gae.latent X A W1 W2 j l := by
  rw [val_main_v8_apply]
  refine Finset.sum_congr rfl fun k _ => ?_
  rw [val_main_v7_apply]
  have el : lidx_main_v8 (ix2 i j) k = ix2 i k :=
    funext fun a => Fin.ext (by match a with | ⟨0, _⟩ => rfl | ⟨1, _⟩ => rfl)
  have er : idx_main_v7 (ridx_main_v8 (ix2 i j) k) = ix2 j k :=
    funext fun a => Fin.ext (by match a with | ⟨0, _⟩ => rfl | ⟨1, _⟩ => rfl)
  rw [el, er, latent_stage, latent_stage]

/-- The last five operations at (i, j): 1 / (1 + exp (−s)) with s the inner product and both ones the word of the
    number one; that expression is the logistic function of s by its definition. -/
theorem recon_stage (i j : Fin 10000) :
    val_main_v14 (F := Ideal) X A W1 W2 (ix2 i j) = Cert.Gae.recon X A W1 W2 i j := by
  rw [val_main_v14_apply, val_main_v13_apply, val_main_cst_1_apply, val_main_v12_apply, val_main_v11_apply,
    val_main_cst_apply, val_main_v10_apply, val_main_v9_apply, gram_stage, Ideal.ofBits_def, one_word]
  rfl

/-- The reference's result array is the specification's: the two agree at every pair of coordinates. -/
theorem ref_is_spec :
    val_main_v14 (F := Ideal) X A W1 W2 = Cert.Gae.reconArr X A W1 W2 := by
  funext j
  obtain ⟨p, q, rfl⟩ : ∃ (p : Fin 10000) (q : Fin 10000), j = ix2 p q := ⟨j 0, j 1, eq_ix2 j⟩
  exact recon_stage X A W1 W2 p q

end Cert.Gae.Ref

end
-- ==== Proof.lean ====
/-
  A two-layer graph auto-encoder's forward pass, A_hat = logistic(Z Zᵀ) with Z = A (relu(A (X W1ᵀ)) W2ᵀ), as four Pallas
  calls (U = X W1ᵀ whole; then, slab by slab of 400 rows over 25 grid points: V = relu(A U) W2ᵀ, Z = A V, and
  logistic(Z Zᵀ)) against the same expression written in jnp. Over the extended reals both programs compute the same
  finite sums in the same grouping — a matrix product into a zero accumulator is the host's dot_general, a change of
  tiling changes no sum, the kernel's logistic is the host's 1 / (1 + exp(−x)) by definition, and the rectifier is the
  maximum with zero on both sides — so the results agree index by index with no use of the arguments' finiteness.

  The frames: each program runs to its end without a fault and leaves its four arguments as launched. For the kernel
  (read at words and at the extended reals alike) @main is two host constants and the four calls in a row; each call's
  pipeline fetches its windows' blocks, runs the body on whole staging buffers, and writes the output block back; call
  3 reads the latent code through two windows, half the array's ownership to each. The reference is host operations
  only. The value: the kernel's result array ends at the specification `Cert.Gae.reconArr` of the arguments
  (Proof/KernelIdeal/Values.lean), and so does the reference's (Proof/RefIsSpec.lean); the two integer results are
  the constant zero in both.
-/
import proofs.«175761_g11158325035213_week1_w3_1130_5_alg».proof.Defs
import proofs.«175761_g11158325035213_week1_w3_1130_5_alg».proof.Proof.Gen.Kernel
import proofs.«175761_g11158325035213_week1_w3_1130_5_alg».proof.Proof.Gen.Kernel.Skeleton
import proofs.«175761_g11158325035213_week1_w3_1130_5_alg».proof.Proof.Gen.Kernel.Launch
import proofs.«175761_g11158325035213_week1_w3_1130_5_alg».proof.Proof.Gen.Kernel.Regions
import proofs.«175761_g11158325035213_week1_w3_1130_5_alg».proof.Proof.Gen.Kernel.Points
import proofs.«175761_g11158325035213_week1_w3_1130_5_alg».proof.Proof.Gen.KernelIdeal
import proofs.«175761_g11158325035213_week1_w3_1130_5_alg».proof.Proof.Gen.KernelIdeal.Skeleton
import proofs.«175761_g11158325035213_week1_w3_1130_5_alg».proof.Proof.Gen.KernelIdeal.Launch
import proofs.«175761_g11158325035213_week1_w3_1130_5_alg».proof.Proof.Gen.KernelIdeal.Regions
import proofs.«175761_g11158325035213_week1_w3_1130_5_alg».proof.Proof.Gen.KernelIdeal.Points
import proofs.«175761_g11158325035213_week1_w3_1130_5_alg».proof.Proof.Gen.ReferenceIdeal
import proofs.«175761_g11158325035213_week1_w3_1130_5_alg».proof.Proof.Gen.Pre_finite_inputs
import proofs.«175761_g11158325035213_week1_w3_1130_5_alg».proof.Proof.Gen.ReferenceIdeal.Run
import proofs.«175761_g11158325035213_week1_w3_1130_5_alg».proof.Proof.Gen.ReferenceIdeal.Read
import proofs.«175761_g11158325035213_week1_w3_1130_5_alg».proof.Proof.Kernel.Whole
import proofs.«175761_g11158325035213_week1_w3_1130_5_alg».proof.Proof.Kernel.Ends
import proofs.«175761_g11158325035213_week1_w3_1130_5_alg».proof.Proof.KernelIdeal.Whole
import proofs.«175761_g11158325035213_week1_w3_1130_5_alg».proof.Proof.KernelIdeal.Ends
import proofs.«175761_g11158325035213_week1_w3_1130_5_alg».proof.Proof.KernelIdeal.Values
import proofs.«175761_g11158325035213_week1_w3_1130_5_alg».proof.Proof.RefIsSpec
import Idealize.ShloMosaic.Adequacy
import Idealize.ShloMosaic.Init

noncomputable section

namespace Cert.Proof

open Idealize.ShloMosaic Idealize.ShloMosaic.TcCoe Idealize.SL.Sem

/-- The kernel as printed: it runs to its end and its arguments end as launched. -/
theorem frame_k : Cert.frame_Kernel := fun m ρ _ =>
  (θ_run Cert.Kernel.defs _ _).mono (fun r h c =>
    ⟨(h c _ (Cert.Kernel.Pass.mem_uc Cert.Kernel.main_arg0 (by decide))).trans (Cert.Kernel.Pass.W5_main_arg0 m ρ c),
      (h c _ (Cert.Kernel.Pass.mem_uc Cert.Kernel.main_arg1 (by decide))).trans (Cert.Kernel.Pass.W5_main_arg1 m ρ c),
      (h c _ (Cert.Kernel.Pass.mem_uc Cert.Kernel.main_arg2 (by decide))).trans (Cert.Kernel.Pass.W5_main_arg2 m ρ c),
      (h c _ (Cert.Kernel.Pass.mem_uc Cert.Kernel.main_arg3 (by decide))).trans (Cert.Kernel.Pass.W5_main_arg3 m ρ c)⟩)
    (Cert.Kernel.Pass.run (F := Bits) m ρ)

/-- The idealized kernel: the same run read at the extended reals. -/
theorem frame_ki : Cert.frame_KernelIdeal := fun m ρ _ =>
  (θ_run Cert.KernelIdeal.defs _ _).mono (fun r h c =>
    ⟨(h c _ (Cert.KernelIdeal.Pass.mem_uc Cert.KernelIdeal.main_arg0 (by decide))).trans (Cert.KernelIdeal.Pass.W5_main_arg0 m ρ c),
      (h c _ (Cert.KernelIdeal.Pass.mem_uc Cert.KernelIdeal.main_arg1 (by decide))).trans (Cert.KernelIdeal.Pass.W5_main_arg1 m ρ c),
      (h c _ (Cert.KernelIdeal.Pass.mem_uc Cert.KernelIdeal.main_arg2 (by decide))).trans (Cert.KernelIdeal.Pass.W5_main_arg2 m ρ c),
      (h c _ (Cert.KernelIdeal.Pass.mem_uc Cert.KernelIdeal.main_arg3 (by decide))).trans (Cert.KernelIdeal.Pass.W5_main_arg3 m ρ c)⟩)
    (Cert.KernelIdeal.Pass.run (F := Ideal) m ρ)

/-- The reference: its run with the results dropped. -/
theorem frame_r : Cert.frame_ReferenceIdeal := fun m ρ _ =>
  (θ_run Cert.ReferenceIdeal.defs _ _).mono (fun _ h c => (h c).2.2.2) (Cert.ReferenceIdeal.Value.run (F := Ideal) m ρ)

/-- The ideal pass rewrote nothing: the idealization is the kernel's own text read at the extended reals. -/
theorem preserves : Cert.preserves_Kernel_KernelIdeal := trivial

/-- Both programs end with the result array at the specification of the arguments, the two integer results at the
    constant zero, and the arguments as launched. -/
theorem algebraic : Cert.algebraic_KernelIdeal_ReferenceIdeal := by
  intro m ρ m' ρ' _ hagree
  refine ⟨fun c => Cert.Gae.reconArr (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    fun _ => constantI Cert.KernelIdeal.S1 32 0#32, fun _ => constantI Cert.KernelIdeal.S1 32 0#32, ?_, ?_⟩
  · refine (θ_run Cert.KernelIdeal.defs _ _).mono (fun r h c => ?_) (Cert.KernelIdeal.Pass.run (F := Ideal) m ρ)
    exact ⟨(h c _ (Cert.KernelIdeal.Pass.mem_uc Cert.KernelIdeal.main_v3 (by decide))).trans (Cert.KernelIdeal.Pass.W5_result m ρ c),
      (h c _ (Cert.KernelIdeal.Pass.mem_uc Cert.KernelIdeal.main_c (by decide))).trans (Cert.KernelIdeal.Pass.W5_main_c m ρ c),
      (h c _ (Cert.KernelIdeal.Pass.mem_uc Cert.KernelIdeal.main_c_0 (by decide))).trans (Cert.KernelIdeal.Pass.W5_main_c_0 m ρ c),
      (h c _ (Cert.KernelIdeal.Pass.mem_uc Cert.KernelIdeal.main_arg0 (by decide))).trans (Cert.KernelIdeal.Pass.W5_main_arg0 m ρ c),
      (h c _ (Cert.KernelIdeal.Pass.mem_uc Cert.KernelIdeal.main_arg1 (by decide))).trans (Cert.KernelIdeal.Pass.W5_main_arg1 m ρ c),
      (h c _ (Cert.KernelIdeal.Pass.mem_uc Cert.KernelIdeal.main_arg2 (by decide))).trans (Cert.KernelIdeal.Pass.W5_main_arg2 m ρ c),
      (h c _ (Cert.KernelIdeal.Pass.mem_uc Cert.KernelIdeal.main_arg3 (by decide))).trans (Cert.KernelIdeal.Pass.W5_main_arg3 m ρ c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v14_eq, Cert.Gae.Ref.ref_is_spec, (hagree c).1, (hagree c).2.1, (hagree c).2.2.1, (hagree c).2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_r, Cert.Proof.preserves, Cert.Proof.algebraic⟩

end
